-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x768 : Shape := ⟨3, ![8, 256, 768]⟩
abbrev S1001x768 : Shape := ⟨2, ![1001, 768]⟩
abbrev S1001 : Shape := ⟨1, ![1001]⟩
abbrev S301x1536 : Shape := ⟨2, ![301, 1536]⟩
abbrev S301 : Shape := ⟨1, ![301]⟩
abbrev S_ : Shape := ⟨0, ![]⟩

class Facts : Prop where
  bcast_S_S8x256x768 : S_.BroadcastsInDim S8x256x768 (![] : Fin 0 → Fin S8x256x768.rank)
  reducesTo_S8x256x768_S_d0_1_2 : S8x256x768.ReducesTo [0, 1, 2] S_
  h_S_ : 0 < S_.numel
  bcast_S_S1001x768 : S_.BroadcastsInDim S1001x768 (![] : Fin 0 → Fin S1001x768.rank)
  reducesTo_S1001x768_S_d0_1 : S1001x768.ReducesTo [0, 1] S_
  bcast_S_S1001 : S_.BroadcastsInDim S1001 (![] : Fin 0 → Fin S1001.rank)
  reducesTo_S1001_S_d0 : S1001.ReducesTo [0] S_
  bcast_S_S301x1536 : S_.BroadcastsInDim S301x1536 (![] : Fin 0 → Fin S301x1536.rank)
  reducesTo_S301x1536_S_d0_1 : S301x1536.ReducesTo [0, 1] S_
  bcast_S_S301 : S_.BroadcastsInDim S301 (![] : Fin 0 → Fin S301.rank)
  reducesTo_S301_S_d0 : S301.ReducesTo [0] S_

variable [Facts]

def fn_part1 {F : FTy → Type} [FloatOps F] (main_arg4 : FVec F S301 .f32) (main_v13 : IVec S_ 1) (main_v16 : IVec S301x1536 1) : IVec S_ 1 :=
  let main_c_5 : IVec S_ 1 := constantI S_ 1 1#1
  let main_v17 : IVec S_ 1 := (fun x v => Host.reduce IntOp.andi x v reducesTo_S301x1536_S_d0_1 h_S_) main_v16 main_c_5
  let main_v18 : IVec S_ 1 := andi main_v13 main_v17
  let main_v19 : FVec F S301 .f32 := Host.absf main_arg4
  let main_cst_6 : FVec F S_ .f32 := constant S_ .f32 0x7F800000#32
  let main_v20 : FVec F S301 .f32 := broadcastInDim S301 ![] bcast_S_S301 main_cst_6
  let main_v21 : IVec S301 1 := cmpf .olt main_v19 main_v20
  let main_c_7 : IVec S_ 1 := constantI S_ 1 1#1
  let main_v22 : IVec S_ 1 := (fun x v => Host.reduce IntOp.andi x v reducesTo_S301_S_d0 h_S_) main_v21 main_c_7
  let main_v23 : IVec S_ 1 := andi main_v18 main_v22
  main_v23

def fn {F : FTy → Type} [FloatOps F] (main_arg0 : FVec F S8x256x768 .f32) (main_arg1 : FVec F S1001x768 .f32) (main_arg2 : FVec F S1001 .f32) (main_arg3 : FVec F S301x1536 .f32) (main_arg4 : FVec F S301 .f32) : IVec S_ 1 :=
  let main_v0 : FVec F S8x256x768 .f32 := Host.absf main_arg0
  let main_cst : FVec F S_ .f32 := constant S_ .f32 0x7F800000#32
  let main_v1 : FVec F S8x256x768 .f32 := broadcastInDim S8x256x768 ![] bcast_S_S8x256x768 main_cst
  let main_v2 : IVec S8x256x768 1 := cmpf .olt main_v0 main_v1
  let main_c : IVec S_ 1 := constantI S_ 1 1#1
  let main_v3 : IVec S_ 1 := (fun x v => Host.reduce IntOp.andi x v reducesTo_S8x256x768_S_d0_1_2 h_S_) main_v2 main_c
  let main_v4 : FVec F S1001x768 .f32 := Host.absf main_arg1
  let main_cst_0 : FVec F S_ .f32 := constant S_ .f32 0x7F800000#32
  let main_v5 : FVec F S1001x768 .f32 := broadcastInDim S1001x768 ![] bcast_S_S1001x768 main_cst_0
  let main_v6 : IVec S1001x768 1 := cmpf .olt main_v4 main_v5
  let main_c_1 : IVec S_ 1 := constantI S_ 1 1#1
  let main_v7 : IVec S_ 1 := (fun x v => Host.reduce IntOp.andi x v reducesTo_S1001x768_S_d0_1 h_S_) main_v6 main_c_1
  let main_v8 : IVec S_ 1 := andi main_v3 main_v7
  let main_v9 : FVec F S1001 .f32 := Host.absf main_arg2
  let main_cst_2 : FVec F S_ .f32 := constant S_ .f32 0x7F800000#32
  let main_v10 : FVec F S1001 .f32 := broadcastInDim S1001 ![] bcast_S_S1001 main_cst_2
  let main_v11 : IVec S1001 1 := cmpf .olt main_v9 main_v10
  let main_c_3 : IVec S_ 1 := constantI S_ 1 1#1
  let main_v12 : IVec S_ 1 := (fun x v => Host.reduce IntOp.andi x v reducesTo_S1001_S_d0 h_S_) main_v11 main_c_3
  let main_v13 : IVec S_ 1 := andi main_v8 main_v12
  let main_v14 : FVec F S301x1536 .f32 := Host.absf main_arg3
  let main_cst_4 : FVec F S_ .f32 := constant S_ .f32 0x7F800000#32
  let main_v15 : FVec F S301x1536 .f32 := broadcastInDim S301x1536 ![] bcast_S_S301x1536 main_cst_4
  let main_v16 : IVec S301x1536 1 := cmpf .olt main_v14 main_v15
  fn_part1 (F := F) main_arg4 main_v13 main_v16
-- ==== Kernel.lean ====
abbrev S8x256x768 : Shape := ⟨3, ![8, 256, 768]⟩
abbrev S1001x768 : Shape := ⟨2, ![1001, 768]⟩
abbrev S1001 : Shape := ⟨1, ![1001]⟩
abbrev S301x1536 : Shape := ⟨2, ![301, 1536]⟩
abbrev S301 : Shape := ⟨1, ![301]⟩
abbrev S2048x768 : Shape := ⟨2, ![2048, 768]⟩
abbrev S301x768 : Shape := ⟨2, ![301, 768]⟩
abbrev S1x1001 : Shape := ⟨2, ![1, 1001]⟩
abbrev S1x301 : Shape := ⟨2, ![1, 301]⟩
abbrev S2048x1001 : Shape := ⟨2, ![2048, 1001]⟩
abbrev S2048x301 : Shape := ⟨2, ![2048, 301]⟩
abbrev S512x768 : Shape := ⟨2, ![512, 768]⟩
abbrev S512x1001 : Shape := ⟨2, ![512, 1001]⟩
abbrev S512x301 : Shape := ⟨2, ![512, 301]⟩
abbrev S8x256x1001 : Shape := ⟨3, ![8, 256, 1001]⟩
abbrev S8x256x301 : Shape := ⟨3, ![8, 256, 301]⟩
abbrev S8x256x256x301 : Shape := ⟨4, ![8, 256, 256, 301]⟩
abbrev S1x64x301 : Shape := ⟨3, ![1, 64, 301]⟩
abbrev S1x64x64x301 : Shape := ⟨4, ![1, 64, 64, 301]⟩
abbrev S64x301 : Shape := ⟨2, ![64, 301]⟩
abbrev S64x1x301 : Shape := ⟨3, ![64, 1, 301]⟩
abbrev S64x64x301 : Shape := ⟨3, ![64, 64, 301]⟩

abbrev nBuf : Space → Nat
  | .hbm => 20
  | .vmem => 19
  | .smem => 0
  | _ => 0

abbrev bufTy : (tb : Table) → Fin (tcTables nBuf tb) → BufTy
  | .hbm, ⟨0, _⟩ => ⟨S8x256x768, .f32⟩
  | .hbm, ⟨1, _⟩ => ⟨S1001x768, .f32⟩
  | .hbm, ⟨2, _⟩ => ⟨S1001, .f32⟩
  | .hbm, ⟨3, _⟩ => ⟨S301x1536, .f32⟩
  | .hbm, ⟨4, _⟩ => ⟨S301, .f32⟩
  | .hbm, ⟨5, _⟩ => ⟨S2048x768, .f32⟩
  | .hbm, ⟨6, _⟩ => ⟨S301x768, .f32⟩
  | .hbm, ⟨7, _⟩ => ⟨S301x768, .f32⟩
  | .hbm, ⟨8, _⟩ => ⟨S1001x768, .bf16⟩
  | .hbm, ⟨9, _⟩ => ⟨S301x768, .bf16⟩
  | .hbm, ⟨10, _⟩ => ⟨S301x768, .bf16⟩
  | .hbm, ⟨11, _⟩ => ⟨S1x1001, .f32⟩
  | .hbm, ⟨12, _⟩ => ⟨S1x301, .f32⟩
  | .hbm, ⟨13, _⟩ => ⟨S2048x1001, .f32⟩
  | .hbm, ⟨14, _⟩ => ⟨S2048x301, .f32⟩
  | .hbm, ⟨15, _⟩ => ⟨S2048x301, .f32⟩
  | .hbm, ⟨16, _⟩ => ⟨S8x256x1001, .f32⟩
  | .hbm, ⟨17, _⟩ => ⟨S8x256x301, .f32⟩
  | .hbm, ⟨18, _⟩ => ⟨S8x256x301, .f32⟩
  | .hbm, ⟨19, _⟩ => ⟨S8x256x256x301, .f32⟩
  | .local _ .vmem, ⟨0, _⟩ => ⟨S512x768, .f32⟩
  | .local _ .vmem, ⟨1, _⟩ => ⟨S512x768, .f32⟩
  | .local _ .vmem, ⟨2, _⟩ => ⟨S1001x768, .bf16⟩
  | .local _ .vmem, ⟨3, _⟩ => ⟨S301x768, .bf16⟩
  | .local _ .vmem, ⟨4, _⟩ => ⟨S301x768, .bf16⟩
  | .local _ .vmem, ⟨5, _⟩ => ⟨S1x1001, .f32⟩
  | .local _ .vmem, ⟨6, _⟩ => ⟨S1x301, .f32⟩
  | .local _ .vmem, ⟨7, _⟩ => ⟨S512x1001, .f32⟩
  | .local _ .vmem, ⟨8, _⟩ => ⟨S512x1001, .f32⟩
  | .local _ .vmem, ⟨9, _⟩ => ⟨S512x301, .f32⟩
  | .local _ .vmem, ⟨10, _⟩ => ⟨S512x301, .f32⟩
  | .local _ .vmem, ⟨11, _⟩ => ⟨S512x301, .f32⟩
  | .local _ .vmem, ⟨12, _⟩ => ⟨S512x301, .f32⟩
  | .local _ .vmem, ⟨13, _⟩ => ⟨S1x64x301, .f32⟩
  | .local _ .vmem, ⟨14, _⟩ => ⟨S1x64x301, .f32⟩
  | .local _ .vmem, ⟨15, _⟩ => ⟨S1x64x301, .f32⟩
  | .local _ .vmem, ⟨16, _⟩ => ⟨S1x64x301, .f32⟩
  | .local _ .vmem, ⟨17, _⟩ => ⟨S1x64x64x301, .f32⟩
  | .local _ .vmem, ⟨18, _⟩ => ⟨S1x64x64x301, .f32⟩
  | _, _ => ⟨S8x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1001x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S301x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S301x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1001 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x301 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1001 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x301 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x301 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨3, ![8, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x64x301 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x64x301 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x64x64x301 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  shapeCasts_S8x256x768_S2048x768 : S8x256x768.ShapeCasts S2048x768
  slices_S301x1536_S301x768_0_0 : S301x1536.Slices ![0, 0] S301x768
  slices_S301x1536_S301x768_0_768 : S301x1536.Slices ![0, 768] S301x768
  bitsLt_bf16_f32 : FTy.bits .bf16 < FTy.bits .f32
  shapeCasts_S1001_S1x1001 : S1001.ShapeCasts S1x1001
  shapeCasts_S301_S1x301 : S301.ShapeCasts S1x301
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1001x768_S1001x768_0_0 : ∀ a, (![0, 0] : Fin 2 → Nat) a + S1001x768.size a ≤ S1001x768.size a
  h_S1001x768 : 0 < S1001x768.numel
  shapeCasts_S1001x768_S1001x768 : S1001x768.ShapeCasts S1001x768
  inb_S301x768_S301x768_0_0 : ∀ a, (![0, 0] : Fin 2 → Nat) a + S301x768.size a ≤ S301x768.size a
  h_S301x768 : 0 < S301x768.numel
  shapeCasts_S301x768_S301x768 : S301x768.ShapeCasts S301x768
  inb_S1x1001_S1x1001_0_0 : ∀ a, (![0, 0] : Fin 2 → Nat) a + S1x1001.size a ≤ S1x1001.size a
  h_S1x1001 : 0 < S1x1001.numel
  shapeCasts_S1x1001_S1x1001 : S1x1001.ShapeCasts S1x1001
  broadcasts_S1x1001_S512x1001 : S1x1001.Broadcasts S512x1001
  inb_S512x1001_S512x1001_0_0 : ∀ a, (![0, 0] : Fin 2 → Nat) a + S512x1001.size a ≤ S512x1001.size a
  h_S512x1001 : 0 < S512x1001.numel
  inb_S512x301_S512x301_0_0 : ∀ a, (![0, 0] : Fin 2 → Nat) a + S512x301.size a ≤ S512x301.size a
  h_S512x301 : 0 < S512x301.numel
  inb_S1x301_S1x301_0_0 : ∀ a, (![0, 0] : Fin 2 → Nat) a + S1x301.size a ≤ S1x301.size a
  h_S1x301 : 0 < S1x301.numel
  shapeCasts_S1x301_S1x301 : S1x301.ShapeCasts S1x301
  broadcasts_S1x301_S512x301 : S1x301.Broadcasts S512x301
  shapeCasts_S2048x1001_S8x256x1001 : S2048x1001.ShapeCasts S8x256x1001
  shapeCasts_S2048x301_S8x256x301 : S2048x301.ShapeCasts S8x256x301
  inb_S1x64x301_S1x64x301_0_0_0 : ∀ a, (![0, 0, 0] : Fin 3 → Nat) a + S1x64x301.size a ≤ S1x64x301.size a
  h_S1x64x301 : 0 < S1x64x301.numel
  shapeCasts_S1x64x301_S64x301 : S1x64x301.ShapeCasts S64x301
  shapeCasts_S64x301_S64x1x301 : S64x301.ShapeCasts S64x1x301
  shapeCasts_S64x301_S1x64x301 : S64x301.ShapeCasts S1x64x301
  broadcasts_S64x1x301_S64x64x301 : S64x1x301.Broadcasts S64x64x301
  broadcasts_S1x64x301_S64x64x301 : S1x64x301.Broadcasts S64x64x301
  inb_S1x64x64x301_S1x64x64x301_0_0_0_0 : ∀ a, (![0, 0, 0, 0] : Fin 4 → Nat) a + S1x64x64x301.size a ≤ S1x64x64x301.size a
  h_S1x64x64x301 : 0 < S1x64x64x301.numel
  shapeCasts_S1x64x64x301_S64x64x301 : S1x64x64x301.ShapeCasts S64x64x301
  shapeCasts_S64x64x301_S1x64x64x301 : S64x64x301.ShapeCasts S1x64x64x301
  dot_S512x768_S1001x768_S512x1001_1_1_0_0_n_n_wf : DotDims.WF S512x768 S1001x768 S512x1001 [1] [1] [0] [0] [] []
  dot_S512x768_S301x768_S512x301_1_1_0_0_n_n_wf : DotDims.WF S512x768 S301x768 S512x301 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S2048x768.size a
  hwx0_0 : ∀ i : grid0.Coords, EltTy.bits .f32 = 32 ∨ (Rect.block (s := S2048x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1001x768.size a ≤ S1001x768.size a
  hwx0_1 : ∀ i : grid0.Coords, EltTy.bits .bf16 = 32 ∨ (Rect.block (s := S1001x768) S1001x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S301x768.size a ≤ S301x768.size a
  hwx0_2 : ∀ i : grid0.Coords, EltTy.bits .bf16 = 32 ∨ (Rect.block (s := S301x768) S301x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S301x768.size a ≤ S301x768.size a
  hwx0_3 : ∀ i : grid0.Coords, EltTy.bits .bf16 = 32 ∨ (Rect.block (s := S301x768) S301x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1001.size a ≤ S1x1001.size a
  hwx0_4 : ∀ i : grid0.Coords, EltTy.bits .f32 = 32 ∨ (Rect.block (s := S1x1001) S1x1001.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x301.size a ≤ S1x301.size a
  hwx0_5 : ∀ i : grid0.Coords, EltTy.bits .f32 = 32 ∨ (Rect.block (s := S1x301) S1x301.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1001.size a ≤ S2048x1001.size a
  hwx0_6 : ∀ i : grid0.Coords, EltTy.bits .f32 = 32 ∨ (Rect.block (s := S2048x1001) S512x1001.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x301.size a ≤ S2048x301.size a
  hwx0_7 : ∀ i : grid0.Coords, EltTy.bits .f32 = 32 ∨ (Rect.block (s := S2048x301) S512x301.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x301.size a ≤ S2048x301.size a
  hwx0_8 : ∀ i : grid0.Coords, EltTy.bits .f32 = 32 ∨ (Rect.block (s := S2048x301) S512x301.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x301.size a ≤ S8x256x301.size a
  hwx1_0 : ∀ i : grid1.Coords, EltTy.bits .f32 = 32 ∨ (Rect.block (s := S8x256x301) S1x64x301.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x301.size a ≤ S8x256x301.size a
  hwx1_1 : ∀ i : grid1.Coords, EltTy.bits .f32 = 32 ∨ (Rect.block (s := S8x256x301) S1x64x301.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x64x301.size a ≤ S8x256x256x301.size a
  hwx1_2 : ∀ i : grid1.Coords, EltTy.bits .f32 = 32 ∨ (Rect.block (s := S8x256x256x301) S1x64x64x301.size (cc1_transform_2 i) (hinb1_2 i)).WholeWords (EltTy.packing .f32)

variable [Facts₀]

def dot_S512x768_S1001x768_S512x1001_1_1_0_0_n_n : DotDims S512x768 S1001x768 S512x1001 where
  lhsContracting := [1]
  rhsContracting := [1]
  lhsNonContracting := [0]
  rhsNonContracting := [0]
  lhsBatch := []
  rhsBatch := []
  wf := dot_S512x768_S1001x768_S512x1001_1_1_0_0_n_n_wf
def dot_S512x768_S301x768_S512x301_1_1_0_0_n_n : DotDims S512x768 S301x768 S512x301 where
  lhsContracting := [1]
  rhsContracting := [1]
  lhsNonContracting := [0]
  rhsNonContracting := [0]
  lhsBatch := []
  rhsBatch := []
  wf := dot_S512x768_S301x768_S512x301_1_1_0_0_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1001x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S301x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S301x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1001.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x301.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S512x1001.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S512x301.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_2) S512x301.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v10) S1x64x301.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x64x301.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x64x64x301.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x256x768 : Shape := ⟨3, ![8, 256, 768]⟩
abbrev S1001x768 : Shape := ⟨2, ![1001, 768]⟩
abbrev S1001 : Shape := ⟨1, ![1001]⟩
abbrev S301x1536 : Shape := ⟨2, ![301, 1536]⟩
abbrev S301 : Shape := ⟨1, ![301]⟩
abbrev S8x256x1001 : Shape := ⟨3, ![8, 256, 1001]⟩
abbrev S1x1x1001 : Shape := ⟨3, ![1, 1, 1001]⟩
abbrev S301x768 : Shape := ⟨2, ![301, 768]⟩
abbrev S8x256x301 : Shape := ⟨3, ![8, 256, 301]⟩
abbrev S8x256x1x301 : Shape := ⟨4, ![8, 256, 1, 301]⟩
abbrev S8x1x256x301 : Shape := ⟨4, ![8, 1, 256, 301]⟩
abbrev S8x256x256x301 : Shape := ⟨4, ![8, 256, 256, 301]⟩
abbrev S1x1x1x301 : Shape := ⟨4, ![1, 1, 1, 301]⟩

abbrev nBuf : Space → Nat
  | .hbm => 21
  | .vmem => 0
  | .smem => 0
  | _ => 0

abbrev bufTy : (tb : Table) → Fin (tcTables nBuf tb) → BufTy
  | .hbm, ⟨0, _⟩ => ⟨S8x256x768, .f32⟩
  | .hbm, ⟨1, _⟩ => ⟨S1001x768, .f32⟩
  | .hbm, ⟨2, _⟩ => ⟨S1001, .f32⟩
  | .hbm, ⟨3, _⟩ => ⟨S301x1536, .f32⟩
  | .hbm, ⟨4, _⟩ => ⟨S301, .f32⟩
  | .hbm, ⟨5, _⟩ => ⟨S8x256x1001, .f32⟩
  | .hbm, ⟨6, _⟩ => ⟨S1x1x1001, .f32⟩
  | .hbm, ⟨7, _⟩ => ⟨S8x256x1001, .f32⟩
  | .hbm, ⟨8, _⟩ => ⟨S8x256x1001, .f32⟩
  | .hbm, ⟨9, _⟩ => ⟨S301x768, .f32⟩
  | .hbm, ⟨10, _⟩ => ⟨S301x768, .f32⟩
  | .hbm, ⟨11, _⟩ => ⟨S8x256x301, .f32⟩
  | .hbm, ⟨12, _⟩ => ⟨S8x256x301, .f32⟩
  | .hbm, ⟨13, _⟩ => ⟨S8x256x1x301, .f32⟩
  | .hbm, ⟨14, _⟩ => ⟨S8x1x256x301, .f32⟩
  | .hbm, ⟨15, _⟩ => ⟨S8x256x256x301, .f32⟩
  | .hbm, ⟨16, _⟩ => ⟨S8x256x256x301, .f32⟩
  | .hbm, ⟨17, _⟩ => ⟨S8x256x256x301, .f32⟩
  | .hbm, ⟨18, _⟩ => ⟨S1x1x1x301, .f32⟩
  | .hbm, ⟨19, _⟩ => ⟨S8x256x256x301, .f32⟩
  | .hbm, ⟨20, _⟩ => ⟨S8x256x256x301, .f32⟩
  | _, _ => ⟨S8x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  bcast_S1001_S1x1x1001_2 : S1001.BroadcastsInDim S1x1x1001 (![2] : Fin 1 → Fin S1x1x1001.rank)
  bcast_S1x1x1001_S8x256x1001_0_1_2 : S1x1x1001.BroadcastsInDim S8x256x1001 (![0, 1, 2] : Fin 3 → Fin S8x256x1001.rank)
  slices_S301x1536_S301x768_0_0 : S301x1536.Slices ![0, 0] S301x768
  slices_S301x1536_S301x768_0_768 : S301x1536.Slices ![0, 768] S301x768
  bcast_S8x256x301_S8x256x1x301_0_1_3 : S8x256x301.BroadcastsInDim S8x256x1x301 (![0, 1, 3] : Fin 3 → Fin S8x256x1x301.rank)
  bcast_S8x256x301_S8x1x256x301_0_2_3 : S8x256x301.BroadcastsInDim S8x1x256x301 (![0, 2, 3] : Fin 3 → Fin S8x1x256x301.rank)
  bcast_S8x256x1x301_S8x256x256x301_0_1_2_3 : S8x256x1x301.BroadcastsInDim S8x256x256x301 (![0, 1, 2, 3] : Fin 4 → Fin S8x256x256x301.rank)
  bcast_S8x1x256x301_S8x256x256x301_0_1_2_3 : S8x1x256x301.BroadcastsInDim S8x256x256x301 (![0, 1, 2, 3] : Fin 4 → Fin S8x256x256x301.rank)
  bcast_S301_S1x1x1x301_3 : S301.BroadcastsInDim S1x1x1x301 (![3] : Fin 1 → Fin S1x1x1x301.rank)
  bcast_S1x1x1x301_S8x256x256x301_0_1_2_3 : S1x1x1x301.BroadcastsInDim S8x256x256x301 (![0, 1, 2, 3] : Fin 4 → Fin S8x256x256x301.rank)
  dot_S8x256x768_S1001x768_S8x256x1001_2_1_01_0_n_n_wf : DotDims.WF S8x256x768 S1001x768 S8x256x1001 [2] [1] [0, 1] [0] [] []
  dot_S8x256x768_S301x768_S8x256x301_2_1_01_0_n_n_wf : DotDims.WF S8x256x768 S301x768 S8x256x301 [2] [1] [0, 1] [0] [] []

variable [Facts₀]

def dot_S8x256x768_S1001x768_S8x256x1001_2_1_01_0_n_n : DotDims S8x256x768 S1001x768 S8x256x1001 where
  lhsContracting := [2]
  rhsContracting := [1]
  lhsNonContracting := [0, 1]
  rhsNonContracting := [0]
  lhsBatch := []
  rhsBatch := []
  wf := dot_S8x256x768_S1001x768_S8x256x1001_2_1_01_0_n_n_wf
def dot_S8x256x768_S301x768_S8x256x301_2_1_01_0_n_n : DotDims S8x256x768 S301x768 S8x256x301 where
  lhsContracting := [2]
  rhsContracting := [1]
  lhsNonContracting := [0, 1]
  rhsNonContracting := [0]
  lhsBatch := []
  rhsBatch := []
  wf := dot_S8x256x768_S301x768_S8x256x301_2_1_01_0_n_n_wf

class Facts : Prop extends Facts₀ where

variable [Facts]
-- ==== Proof.KernelRun.lean ====
/-
  The idealized kernel's run, with its two result arrays named.

  The program is a stretch of host operations, the projection call, three reshapes, and the pair-expansion call.  The
  generated frame follows the contents of every buffer through these four segments as a fold from the launch memory
  (`Gen.W0` … `Gen.W4`), and shows that every execution terminates with every unscoped buffer at the last stage
  `Gen.W4` of that fold.  Here the same launch is read once more at the two RESULT buffers as well as at the arguments:
  the atom logits and the bond logits end at what the fold holds for them.  What those two entries of the fold are, as
  functions of the arguments, is the subject of the modules that follow.
-/
import proofs.«112111_j6459630814081_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two result buffers at the last stage of the
    fold of buffer contents through the program's four segments, and the arguments as launched. -/
theorem run_fold : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v9 (by decide)),
       h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Results

end
-- ==== Proof.ProjEntry.lean ====
/-
  The projection body, read at an entry.

  At a grid point the body holds a block `x` of 512 token rows (768 features each), the three weight matrices whole
  (`wa` with 1001 rows, `w1` and `w2` with 301 rows, 768 columns each, one row per output column) and the two bias
  rows.  It stores three products of `x` with a TRANSPOSED weight matrix — the contraction runs over the second axis of
  both operands —, two of them with a bias row added to every token row.  On the extended reals the change of float
  format applied to `x` is the identity and a product accumulated from the zero matrix is the plain sum, so at entry
  `(r, a)`:

      atom  (r, a) = (Σ k < 768, x (r, k) · wa (a, k)) + ba (0, a)
      first (r, n) =  Σ k < 768, x (r, k) · w1 (n, k)
      second(r, n) = (Σ k < 768, x (r, k) · w2 (n, k)) + bb (0, n)
-/
import proofs.«112111_j6459630814081_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ProjEntry

open Cert.KernelIdeal Cert.KernelIdeal.Gen Idealize.ShloMosaic Idealize.ShloMosaic.ValueIdx

/-- The dimension record of the product with the 1001-row weight matrix. -/
abbrev DA : DotDims S512x768 S1001x768 S512x1001 := dot_S512x768_S1001x768_S512x1001_1_1_0_0_n_n
/-- The dimension record of the products with a 301-row weight matrix. -/
abbrev DB : DotDims S512x768 S301x768 S512x301 := dot_S512x768_S301x768_S512x301_1_1_0_0_n_n

/-! ## Which operand entries a product's entry reads -/

theorem lhsA_0 (j : S512x1001.Idx) (q : DA.contr.Idx) : (DA.lhsIdx j q 0).val = (j 0).val := by
  unfold DotDims.lhsIdx
  rw [dif_neg (show ¬(0 : Fin S512x768.rank) ∈ DA.lhsBatch by decide), dif_pos (show (0 : Fin S512x768.rank) ∈ DA.lhsNonContracting by decide)]
  rfl
theorem lhsA_1 (j : S512x1001.Idx) (q : DA.contr.Idx) : (DA.lhsIdx j q 1).val = (q ⟨0, by decide⟩).val :=
  DA.lhsIdx_val_of_single rfl j q
theorem rhsA_0 (j : S512x1001.Idx) (q : DA.contr.Idx) : (DA.rhsIdx j q 0).val = (j 1).val := by
  unfold DotDims.rhsIdx
  rw [dif_neg (show ¬(0 : Fin S1001x768.rank) ∈ DA.rhsBatch by decide), dif_pos (show (0 : Fin S1001x768.rank) ∈ DA.rhsNonContracting by decide)]
  rfl
theorem rhsA_1 (j : S512x1001.Idx) (q : DA.contr.Idx) : (DA.rhsIdx j q 1).val = (q ⟨0, by decide⟩).val :=
  DA.rhsIdx_val_of_single rfl j q

theorem lhsB_0 (j : S512x301.Idx) (q : DB.contr.Idx) : (DB.lhsIdx j q 0).val = (j 0).val := by
  unfold DotDims.lhsIdx
  rw [dif_neg (show ¬(0 : Fin S512x768.rank) ∈ DB.lhsBatch by decide), dif_pos (show (0 : Fin S512x768.rank) ∈ DB.lhsNonContracting by decide)]
  rfl
theorem lhsB_1 (j : S512x301.Idx) (q : DB.contr.Idx) : (DB.lhsIdx j q 1).val = (q ⟨0, by decide⟩).val :=
  DB.lhsIdx_val_of_single rfl j q
theorem rhsB_0 (j : S512x301.Idx) (q : DB.contr.Idx) : (DB.rhsIdx j q 0).val = (j 1).val := by
  unfold DotDims.rhsIdx
  rw [dif_neg (show ¬(0 : Fin S301x768.rank) ∈ DB.rhsBatch by decide), dif_pos (show (0 : Fin S301x768.rank) ∈ DB.rhsNonContracting by decide)]
  rfl
theorem rhsB_1 (j : S512x301.Idx) (q : DB.contr.Idx) : (DB.rhsIdx j q 1).val = (q ⟨0, by decide⟩).val :=
  DB.rhsIdx_val_of_single rfl j q

/-! ## A product with a transposed weight matrix, accumulated from zero, is the plain sum -/

/-- Entry `(r, a)` of `x · waᵀ` accumulated from the zero matrix is `Σ k, x (r, k) · wa (a, k)`. -/
theorem matmulA_entry (x : FVec Ideal S512x768 .bf16) (w : FVec Ideal S1001x768 .bf16) (r : Fin 512) (a : Fin 1001) :
    matmul DA none x w (constant (F := Ideal) S512x1001 .f32 0x00000000#32) (ix2 r a)
      = ∑ k : Fin 768, x (ix2 r k) * w (ix2 a k) := by
  refine (Ideal.matmul_constant_zero_apply DA none x w (ix2 r a)).trans ?_
  rw [← Equiv.sum_comp (contrEquiv1 DA 768 rfl rfl).symm]
  refine Finset.sum_congr rfl fun k _ => ?_
  have hk := contrEquiv1_symm_val DA 768 rfl rfl k
  have el : DA.lhsIdx (ix2 r a) ((contrEquiv1 DA 768 rfl rfl).symm k) = ix2 r k := funext fun ax => Fin.ext (by
    match ax with
    | ⟨0, _⟩ => exact lhsA_0 _ _
    | ⟨1, _⟩ => exact (lhsA_1 _ _).trans hk)
  have er : DA.rhsIdx (ix2 r a) ((contrEquiv1 DA 768 rfl rfl).symm k) = ix2 a k := funext fun ax => Fin.ext (by
    match ax with
    | ⟨0, _⟩ => exact rhsA_0 _ _
    | ⟨1, _⟩ => exact (rhsA_1 _ _).trans hk)
  rw [el, er]

/-- Entry `(r, n)` of `x · wᵀ` accumulated from the zero matrix is `Σ k, x (r, k) · w (n, k)`. -/
theorem matmulB_entry (x : FVec Ideal S512x768 .bf16) (w : FVec Ideal S301x768 .bf16) (r : Fin 512) (n : Fin 301) :
    matmul DB none x w (constant (F := Ideal) S512x301 .f32 0x00000000#32) (ix2 r n)
      = ∑ k : Fin 768, x (ix2 r k) * w (ix2 n k) := by
  refine (Ideal.matmul_constant_zero_apply DB none x w (ix2 r n)).trans ?_
  rw [← Equiv.sum_comp (contrEquiv1 DB 768 rfl rfl).symm]
  refine Finset.sum_congr rfl fun k _ => ?_
  have hk := contrEquiv1_symm_val DB 768 rfl rfl k
  have el : DB.lhsIdx (ix2 r n) ((contrEquiv1 DB 768 rfl rfl).symm k) = ix2 r k := funext fun ax => Fin.ext (by
    match ax with
    | ⟨0, _⟩ => exact lhsB_0 _ _
    | ⟨1, _⟩ => exact (lhsB_1 _ _).trans hk)
  have er : DB.rhsIdx (ix2 r n) ((contrEquiv1 DB 768 rfl rfl).symm k) = ix2 n k := funext fun ax => Fin.ext (by
    match ax with
    | ⟨0, _⟩ => exact rhsB_0 _ _
    | ⟨1, _⟩ => exact (rhsB_1 _ _).trans hk)
  rw [el, er]

/-! ## The three stored values at an entry -/

/-- The atom head's block: the product with `wa` plus the bias row, at `(r, a)`. -/
theorem atom_entry (x : FVec Ideal S512x768 .f32) (w : FVec Ideal S1001x768 .bf16) (b : FVec Ideal S1x1001 .f32)
    (r : Fin 512) (a : Fin 1001) :
    k0_pay2 (F := Ideal) x w b (ix2 r a) = (∑ k : Fin 768, x (ix2 r k) * w (ix2 a k)) + b (ix2 (0 : Fin 1) a) := by
  unfold k0_pay2 k0_pay1
  dsimp only
  rw [shapeCast_self, shapeCast_self, shapeCast_self, addf_apply, broadcastTo_1b_ab_apply, matmulA_entry]
  rfl

/-- The first bond projection's block: the product with `w1`, at `(r, n)`. -/
theorem first_entry (x : FVec Ideal S512x768 .f32) (w : FVec Ideal S301x768 .bf16) (r : Fin 512) (n : Fin 301) :
    k0_pay3 (F := Ideal) x w (ix2 r n) = ∑ k : Fin 768, x (ix2 r k) * w (ix2 n k) := by
  unfold k0_pay3 k0_pay1
  dsimp only
  rw [shapeCast_self, shapeCast_self, matmulB_entry]
  rfl

/-- The second bond projection's block: the product with `w2` plus the bias row, at `(r, n)`. -/
theorem second_entry (x : FVec Ideal S512x768 .f32) (w : FVec Ideal S301x768 .bf16) (b : FVec Ideal S1x301 .f32)
    (r : Fin 512) (n : Fin 301) :
    k0_pay4 (F := Ideal) x w b (ix2 r n) = (∑ k : Fin 768, x (ix2 r k) * w (ix2 n k)) + b (ix2 (0 : Fin 1) n) := by
  unfold k0_pay4 k0_pay1
  dsimp only
  rw [shapeCast_self, shapeCast_self, shapeCast_self, addf_apply, broadcastTo_1b_ab_apply, matmulB_entry]
  rfl

end Cert.KernelIdeal.ProjEntry

end
-- ==== Proof.HeadsSpec.lean ====
/-
  The two heads, as functions of arrays, entry by entry, on the extended reals.

  A head projects every token's 768 features through a weight matrix stored one ROW per output column (so the sum runs
  over the second axis of both operands) and may add a bias:

      rows     X W   (r, a) =  Σ k, X (r, k) · W (a, k)
      rowsBias X W b (r, a) = (Σ k, X (r, k) · W (a, k)) + b (0, a)            (the bias kept as one row `[1, N]`)

  The pair expansion adds row `i` of one projection to row `j` of another, per batch element `e`:

      pairs P Q (e, i, j, n) = P (e, i, n) + Q (e, j, n)

  and the model's two results, over the arguments as given — tokens `x : [8, 256, 768]`, atom weights `[1001, 768]`,
  atom bias `[1001]`, bond weights `[301, 1536]` (the first 768 columns act on token `i`, the last 768 on token `j`),
  bond bias `[301]` —:

      atomLogits (e, l, a)    = (Σ k, x (e, l, k) · Wa (a, k)) + ba a
      bondLogits (e, i, j, n) =  Σ k, x (e, i, k) · Wb (n, k)  +  ((Σ k, x (e, j, k) · Wb (n, 768 + k)) + bb n)

  `bondLogits` is written with the bias grouped with the second projection.  Grouping it last instead,
  `(p + q) + b`, gives the same extended real: addition on the extended reals is associative with no side condition
  (`bond_regroup`), so no finiteness of the inputs is used anywhere.
-/
import Idealize.ShloMosaic.Lib.ValueIdx
import Idealize.ShloMosaic.PureOps.Ideal

noncomputable section

namespace Heads

open Idealize.ShloMosaic Idealize.ShloMosaic.ValueIdx

/-- Tokens times a row-per-output weight matrix. -/
def rows {M N K : ℕ} (X : (⟨2, ![M, K]⟩ : Shape).Idx → EReal) (W : (⟨2, ![N, K]⟩ : Shape).Idx → EReal) :
    (⟨2, ![M, N]⟩ : Shape).Idx → EReal :=
  fun i => ∑ k : Fin K, X (ix2 (i 0) k) * W (ix2 (i 1) k)

/-- The same plus a bias row. -/
def rowsBias {M N K : ℕ} (X : (⟨2, ![M, K]⟩ : Shape).Idx → EReal) (W : (⟨2, ![N, K]⟩ : Shape).Idx → EReal)
    (b : (⟨2, ![1, N]⟩ : Shape).Idx → EReal) : (⟨2, ![M, N]⟩ : Shape).Idx → EReal :=
  fun i => (∑ k : Fin K, X (ix2 (i 0) k) * W (ix2 (i 1) k)) + b (ix2 (0 : Fin 1) (i 1))

theorem rows_apply {M N K : ℕ} (X : (⟨2, ![M, K]⟩ : Shape).Idx → EReal) (W : (⟨2, ![N, K]⟩ : Shape).Idx → EReal)
    (r : Fin M) (a : Fin N) : rows X W (ix2 r a) = ∑ k : Fin K, X (ix2 r k) * W (ix2 a k) := rfl

theorem rowsBias_apply {M N K : ℕ} (X : (⟨2, ![M, K]⟩ : Shape).Idx → EReal) (W : (⟨2, ![N, K]⟩ : Shape).Idx → EReal)
    (b : (⟨2, ![1, N]⟩ : Shape).Idx → EReal) (r : Fin M) (a : Fin N) :
    rowsBias X W b (ix2 r a) = (∑ k : Fin K, X (ix2 r k) * W (ix2 a k)) + b (ix2 (0 : Fin 1) a) := rfl

/-- Row `i` of `P` plus row `j` of `Q`, per batch element. -/
def pairs {E L N : ℕ} (P Q : (⟨3, ![E, L, N]⟩ : Shape).Idx → EReal) : (⟨4, ![E, L, L, N]⟩ : Shape).Idx → EReal :=
  fun i => P (ix3 (i 0) (i 1) (i 3)) + Q (ix3 (i 0) (i 2) (i 3))

theorem pairs_apply {E L N : ℕ} (P Q : (⟨3, ![E, L, N]⟩ : Shape).Idx → EReal) (e : Fin E) (i j : Fin L) (n : Fin N) :
    pairs P Q (ix4 e i j n) = P (ix3 e i n) + Q (ix3 e j n) := rfl

/-- Column `k` of the first half of the bond weights' row. -/
abbrev lo (k : Fin 768) : Fin 1536 := ⟨k.val, by have := k.isLt; omega⟩
/-- Column `k` of the second half. -/
abbrev hi (k : Fin 768) : Fin 1536 := ⟨768 + k.val, by have := k.isLt; omega⟩

/-- The atom head over the arguments. -/
def atomLogits (x : (⟨3, ![8, 256, 768]⟩ : Shape).Idx → EReal) (Wa : (⟨2, ![1001, 768]⟩ : Shape).Idx → EReal)
    (ba : (⟨1, ![1001]⟩ : Shape).Idx → EReal) : (⟨3, ![8, 256, 1001]⟩ : Shape).Idx → EReal :=
  fun i => (∑ k : Fin 768, x (ix3 (i 0) (i 1) k) * Wa (ix2 (i 2) k)) + ba (ix1 (i 2))

theorem atomLogits_apply (x : (⟨3, ![8, 256, 768]⟩ : Shape).Idx → EReal) (Wa : (⟨2, ![1001, 768]⟩ : Shape).Idx → EReal)
    (ba : (⟨1, ![1001]⟩ : Shape).Idx → EReal) (e : Fin 8) (l : Fin 256) (a : Fin 1001) :
    atomLogits x Wa ba (ix3 e l a) = (∑ k : Fin 768, x (ix3 e l k) * Wa (ix2 a k)) + ba (ix1 a) := rfl

/-- The bond head over the arguments, the bias grouped with the second projection. -/
def bondLogits (x : (⟨3, ![8, 256, 768]⟩ : Shape).Idx → EReal) (Wb : (⟨2, ![301, 1536]⟩ : Shape).Idx → EReal)
    (bb : (⟨1, ![301]⟩ : Shape).Idx → EReal) : (⟨4, ![8, 256, 256, 301]⟩ : Shape).Idx → EReal :=
  fun i => (∑ k : Fin 768, x (ix3 (i 0) (i 1) k) * Wb (ix2 (i 3) (lo k)))
    + ((∑ k : Fin 768, x (ix3 (i 0) (i 2) k) * Wb (ix2 (i 3) (hi k))) + bb (ix1 (i 3)))

theorem bondLogits_apply (x : (⟨3, ![8, 256, 768]⟩ : Shape).Idx → EReal) (Wb : (⟨2, ![301, 1536]⟩ : Shape).Idx → EReal)
    (bb : (⟨1, ![301]⟩ : Shape).Idx → EReal) (e : Fin 8) (i j : Fin 256) (n : Fin 301) :
    bondLogits x Wb bb (ix4 e i j n) = (∑ k : Fin 768, x (ix3 e i k) * Wb (ix2 n (lo k)))
      + ((∑ k : Fin 768, x (ix3 e j k) * Wb (ix2 n (hi k))) + bb (ix1 n)) := rfl

/-- Adding the bias last is adding it to the second projection first: addition of extended reals is associative. -/
theorem bond_regroup (p q b : EReal) : (p + q) + b = p + (q + b) := add_assoc p q b

end Heads

end
-- ==== Proof.ProjArrays.lean ====
/-
  The projection call's three output arrays, whole.

  The call runs over 4 grid points.  Point `t` reads block `t` of the token rows — rows `512·t … 512·t + 511` of the
  `[2048, 768]` array — and the three weight matrices and two bias rows WHOLE (their block number is `(0, 0)` at every
  point), and writes back block `t` (the same 512 rows) of each of its three outputs.  The three output windows' blocks
  tile their arrays, so after the call each output array is ONE function of the arrays the call found, entry by entry:

      atom   = rowsBias tokens wa ba        second = rowsBias tokens w2 bb        first = rows tokens w1

  (`Heads.rows`, `Heads.rowsBias`).  The entry contents `V` of the call are a parameter here: which arrays they are in
  terms of the program's arguments is read off the host operations elsewhere.
-/
import proofs.«112111_j6459630814081_2_alg».proof.Proof.Gen.KernelIdeal.Frame
import proofs.«112111_j6459630814081_2_alg».proof.Proof.ProjEntry
import proofs.«112111_j6459630814081_2_alg».proof.Proof.HeadsSpec
import Idealize.ShloMosaic.Lib.Pipeline.Value

set_option maxRecDepth 16384

noncomputable section

namespace Cert.KernelIdeal.ProjArrays

open Cert.KernelIdeal Cert.KernelIdeal.Gen Idealize.ShloMosaic Idealize.ShloMosaic.TcCoe Idealize.SL.Sem
open Idealize.ShloMosaic.ValueIdx
open Idealize.ShloMosaic.Pipeline (Dat)
open Heads Cert.KernelIdeal.ProjEntry

variable (V : (c : Dev nD) → (b : Ref sig .tc) → Buf (Elt Ideal) ((c : Thread nD τ).loc b))

theorem hz : (![0, 0] : Fin 2 → Nat) = fun _ => 0 := funext fun a => by fin_cases a <;> rfl

/-- The printed block numbers, decided over the 4 grid points: the token window and the three output windows move
    together along the rows and stay at column block 0; the weights and biases stay at block `(0, 0)`. -/
theorem idx_facts : ∀ t : Fin cfg0.N,
    win0_0.index t (1 : Fin 2) = 0 ∧ win0_0.index t (0 : Fin 2) ≤ 3
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = win0_0.index t (0 : Fin 2) ∧ win0_6.index t (1 : Fin 2) = 0
    ∧ win0_7.index t (0 : Fin 2) = win0_0.index t (0 : Fin 2) ∧ win0_7.index t (1 : Fin 2) = 0
    ∧ win0_8.index t (0 : Fin 2) = win0_0.index t (0 : Fin 2) ∧ win0_8.index t (1 : Fin 2) = 0 :=
  (by decide +kernel : ∀ t : Fin grid0.N, _)

/-- Every row block is some point's. -/
theorem idx_onto : ∀ q : Fin 4, ∃ t : Fin cfg0.N, win0_0.index t (0 : Fin 2) = q.val :=
  (by decide +kernel : ∀ q : Fin 4, ∃ t : Fin grid0.N, win0_0.index t (0 : Fin 2) = q.val)

/-! ## The input windows' blocks as entries of the arrays -/

/-- The token block at point `t`: its row `r` is row `512·T + r` of the token rows, `T` the point's block number. -/
theorem tokens_apply (c : Dev nD) (t : Fin cfg0.N) (r : Fin 512) (k : Fin 768) (R : Fin 2048)
    (hR : R.val = win0_0.index t (0 : Fin 2) * 512 + r.val) :
    (iblk0 V c 0 t : Vec Ideal S512x768 .f32) (ix2 r k) = (V c main_v0 : S2048x768.Idx → EReal) (ix2 R k) := by
  obtain ⟨e01, hT, e10, e11, e20, e21, e30, e31, e40, e41, e50, e51, e60, e61, e70, e71, e80, e81⟩ := idx_facts t
  unfold iblk0
  rw [View.read_apply]
  show V c main_v0 _ = V c main_v0 _
  congr 1
  funext a; apply Fin.ext
  match a with
  | ⟨0, _⟩ => show win0_0.index t (0 : Fin 2) * 512 + 1 * r.val = R.val; omega
  | ⟨1, _⟩ => show win0_0.index t (1 : Fin 2) * 768 + 1 * k.val = k.val; rw [e01]; omega

/-- The atom weights' block is the whole matrix. -/
theorem wa_block (c : Dev nD) (t : Fin cfg0.N) :
    (iblk0 V c 1 t : Vec Ideal S1001x768 .bf16) = (V c main_v3 : S1001x768.Idx → EReal) := by
  obtain ⟨e01, hT, e10, e11, e20, e21, e30, e31, e40, e41, e50, e51, e60, e61, e70, e71, e80, e81⟩ := idx_facts t
  unfold iblk0
  funext y
  rw [View.read_apply]
  show V c main_v3 _ = V c main_v3 y
  congr 1
  funext a; apply Fin.ext
  match a with
  | ⟨0, _⟩ => show win0_1.index t (0 : Fin 2) * 1001 + 1 * (y 0).val = (y 0).val; rw [e10]; omega
  | ⟨1, _⟩ => show win0_1.index t (1 : Fin 2) * 768 + 1 * (y 1).val = (y 1).val; rw [e11]; omega

/-- The first bond weights' block is the whole matrix. -/
theorem w1_block (c : Dev nD) (t : Fin cfg0.N) :
    (iblk0 V c 2 t : Vec Ideal S301x768 .bf16) = (V c main_v4 : S301x768.Idx → EReal) := by
  obtain ⟨e01, hT, e10, e11, e20, e21, e30, e31, e40, e41, e50, e51, e60, e61, e70, e71, e80, e81⟩ := idx_facts t
  unfold iblk0
  funext y
  rw [View.read_apply]
  show V c main_v4 _ = V c main_v4 y
  congr 1
  funext a; apply Fin.ext
  match a with
  | ⟨0, _⟩ => show win0_2.index t (0 : Fin 2) * 301 + 1 * (y 0).val = (y 0).val; rw [e20]; omega
  | ⟨1, _⟩ => show win0_2.index t (1 : Fin 2) * 768 + 1 * (y 1).val = (y 1).val; rw [e21]; omega

/-- The second bond weights' block is the whole matrix. -/
theorem w2_block (c : Dev nD) (t : Fin cfg0.N) :
    (iblk0 V c 3 t : Vec Ideal S301x768 .bf16) = (V c main_v5 : S301x768.Idx → EReal) := by
  obtain ⟨e01, hT, e10, e11, e20, e21, e30, e31, e40, e41, e50, e51, e60, e61, e70, e71, e80, e81⟩ := idx_facts t
  unfold iblk0
  funext y
  rw [View.read_apply]
  show V c main_v5 _ = V c main_v5 y
  congr 1
  funext a; apply Fin.ext
  match a with
  | ⟨0, _⟩ => show win0_3.index t (0 : Fin 2) * 301 + 1 * (y 0).val = (y 0).val; rw [e30]; omega
  | ⟨1, _⟩ => show win0_3.index t (1 : Fin 2) * 768 + 1 * (y 1).val = (y 1).val; rw [e31]; omega

/-- The atom bias row's block is the whole row. -/
theorem ba_block (c : Dev nD) (t : Fin cfg0.N) :
    (iblk0 V c 4 t : Vec Ideal S1x1001 .f32) = (V c main_v6 : S1x1001.Idx → EReal) := by
  obtain ⟨e01, hT, e10, e11, e20, e21, e30, e31, e40, e41, e50, e51, e60, e61, e70, e71, e80, e81⟩ := idx_facts t
  unfold iblk0
  funext y
  rw [View.read_apply]
  show V c main_v6 _ = V c main_v6 y
  congr 1
  funext a; apply Fin.ext
  match a with
  | ⟨0, _⟩ => show win0_4.index t (0 : Fin 2) * 1 + 1 * (y 0).val = (y 0).val; rw [e40]; omega
  | ⟨1, _⟩ => show win0_4.index t (1 : Fin 2) * 1001 + 1 * (y 1).val = (y 1).val; rw [e41]; omega

/-- The bond bias row's block is the whole row. -/
theorem bb_block (c : Dev nD) (t : Fin cfg0.N) :
    (iblk0 V c 5 t : Vec Ideal S1x301 .f32) = (V c main_v7 : S1x301.Idx → EReal) := by
  obtain ⟨e01, hT, e10, e11, e20, e21, e30, e31, e40, e41, e50, e51, e60, e61, e70, e71, e80, e81⟩ := idx_facts t
  unfold iblk0
  funext y
  rw [View.read_apply]
  show V c main_v7 _ = V c main_v7 y
  congr 1
  funext a; apply Fin.ext
  match a with
  | ⟨0, _⟩ => show win0_5.index t (0 : Fin 2) * 1 + 1 * (y 0).val = (y 0).val; rw [e50]; omega
  | ⟨1, _⟩ => show win0_5.index t (1 : Fin 2) * 301 + 1 * (y 1).val = (y 1).val; rw [e51]; omega

/-! ## What a point writes back -/

/-- Point `t` writes back block `t` of the atom head of the arrays the call found. -/
theorem atom_flushed (c : Dev nD) (t : Fin cfg0.N) :
    (dat0 V c).flushed 6 t = ((cfg0.win 6).blk t).view.read (Elt Ideal)
      (rowsBias (V c main_v0 : S2048x768.Idx → EReal) (V c main_v3 : S1001x768.Idx → EReal) (V c main_v6 : S1x1001.Idx → EReal)) := by
  show (cfg0.win 6).cut (grid0.coords t) ((dat0 V c).after 6 t) = _
  rw [after0_6]
  unfold out0_6
  rw [View.canon_unit_zero hz]
  simp only [View.ld_unit_zero (S := S512x768) hz, View.ld_unit_zero (S := S1001x768) hz, View.ld_unit_zero (S := S1x1001) hz]
  obtain ⟨e01, hT, e10, e11, e20, e21, e30, e31, e40, e41, e50, e51, e60, e61, e70, e71, e80, e81⟩ := idx_facts t
  funext j
  obtain ⟨r, a, rfl⟩ : ∃ (r : Fin 512) (a : Fin 1001), j = ix2 r a := ⟨j 0, j 1, eq_ix2 j⟩
  have hlt : win0_0.index t (0 : Fin 2) * 512 + r.val < 2048 := by have := r.isLt; omega
  have hE : ((cfg0.win 6).blk t).view.emb (ix2 r a) = ix2 (⟨win0_0.index t (0 : Fin 2) * 512 + r.val, hlt⟩ : Fin 2048) a := by
    funext ax; apply Fin.ext
    match ax with
    | ⟨0, _⟩ => show win0_6.index t (0 : Fin 2) * 512 + 1 * r.val = win0_0.index t (0 : Fin 2) * 512 + r.val; rw [e60]; omega
    | ⟨1, _⟩ => show win0_6.index t (1 : Fin 2) * 1001 + 1 * a.val = a.val; rw [e61]; omega
  show k0_pay2 (F := Ideal) (iblk0 V c 0 t) (iblk0 V c 1 t) (iblk0 V c 4 t) (ix2 r a)
    = rowsBias (V c main_v0 : S2048x768.Idx → EReal) (V c main_v3 : S1001x768.Idx → EReal) (V c main_v6 : S1x1001.Idx → EReal) (((cfg0.win 6).blk t).view.emb (ix2 r a))
  rw [hE, rowsBias_apply]
  refine (atom_entry (iblk0 V c 0 t) (iblk0 V c 1 t) (iblk0 V c 4 t) r a).trans ?_
  rw [wa_block V c t, ba_block V c t]
  congr 1
  exact Finset.sum_congr rfl fun k _ => by rw [tokens_apply V c t r k ⟨win0_0.index t (0 : Fin 2) * 512 + r.val, hlt⟩ rfl]

/-- Point `t` writes back block `t` of the first bond projection of the arrays the call found. -/
theorem first_flushed (c : Dev nD) (t : Fin cfg0.N) :
    (dat0 V c).flushed 7 t = ((cfg0.win 7).blk t).view.read (Elt Ideal)
      (rows (V c main_v0 : S2048x768.Idx → EReal) (V c main_v4 : S301x768.Idx → EReal)) := by
  show (cfg0.win 7).cut (grid0.coords t) ((dat0 V c).after 7 t) = _
  rw [after0_7]
  unfold out0_7
  rw [View.canon_unit_zero hz]
  simp only [View.ld_unit_zero (S := S512x768) hz, View.ld_unit_zero (S := S301x768) hz]
  obtain ⟨e01, hT, e10, e11, e20, e21, e30, e31, e40, e41, e50, e51, e60, e61, e70, e71, e80, e81⟩ := idx_facts t
  funext j
  obtain ⟨r, n, rfl⟩ : ∃ (r : Fin 512) (n : Fin 301), j = ix2 r n := ⟨j 0, j 1, eq_ix2 j⟩
  have hlt : win0_0.index t (0 : Fin 2) * 512 + r.val < 2048 := by have := r.isLt; omega
  have hE : ((cfg0.win 7).blk t).view.emb (ix2 r n) = ix2 (⟨win0_0.index t (0 : Fin 2) * 512 + r.val, hlt⟩ : Fin 2048) n := by
    funext ax; apply Fin.ext
    match ax with
    | ⟨0, _⟩ => show win0_7.index t (0 : Fin 2) * 512 + 1 * r.val = win0_0.index t (0 : Fin 2) * 512 + r.val; rw [e70]; omega
    | ⟨1, _⟩ => show win0_7.index t (1 : Fin 2) * 301 + 1 * n.val = n.val; rw [e71]; omega
  show k0_pay3 (F := Ideal) (iblk0 V c 0 t) (iblk0 V c 2 t) (ix2 r n)
    = rows (V c main_v0 : S2048x768.Idx → EReal) (V c main_v4 : S301x768.Idx → EReal) (((cfg0.win 7).blk t).view.emb (ix2 r n))
  rw [hE, rows_apply]
  refine (first_entry (iblk0 V c 0 t) (iblk0 V c 2 t) r n).trans ?_
  rw [w1_block V c t]
  exact Finset.sum_congr rfl fun k _ => by rw [tokens_apply V c t r k ⟨win0_0.index t (0 : Fin 2) * 512 + r.val, hlt⟩ rfl]

/-- Point `t` writes back block `t` of the second bond projection, bias included, of the arrays the call found. -/
theorem second_flushed (c : Dev nD) (t : Fin cfg0.N) :
    (dat0 V c).flushed 8 t = ((cfg0.win 8).blk t).view.read (Elt Ideal)
      (rowsBias (V c main_v0 : S2048x768.Idx → EReal) (V c main_v5 : S301x768.Idx → EReal) (V c main_v7 : S1x301.Idx → EReal)) := by
  show (cfg0.win 8).cut (grid0.coords t) ((dat0 V c).after 8 t) = _
  rw [after0_8]
  unfold out0_8
  rw [View.canon_unit_zero hz]
  simp only [View.ld_unit_zero (S := S512x768) hz, View.ld_unit_zero (S := S301x768) hz, View.ld_unit_zero (S := S1x301) hz]
  obtain ⟨e01, hT, e10, e11, e20, e21, e30, e31, e40, e41, e50, e51, e60, e61, e70, e71, e80, e81⟩ := idx_facts t
  funext j
  obtain ⟨r, n, rfl⟩ : ∃ (r : Fin 512) (n : Fin 301), j = ix2 r n := ⟨j 0, j 1, eq_ix2 j⟩
  have hlt : win0_0.index t (0 : Fin 2) * 512 + r.val < 2048 := by have := r.isLt; omega
  have hE : ((cfg0.win 8).blk t).view.emb (ix2 r n) = ix2 (⟨win0_0.index t (0 : Fin 2) * 512 + r.val, hlt⟩ : Fin 2048) n := by
    funext ax; apply Fin.ext
    match ax with
    | ⟨0, _⟩ => show win0_8.index t (0 : Fin 2) * 512 + 1 * r.val = win0_0.index t (0 : Fin 2) * 512 + r.val; rw [e80]; omega
    | ⟨1, _⟩ => show win0_8.index t (1 : Fin 2) * 301 + 1 * n.val = n.val; rw [e81]; omega
  show k0_pay4 (F := Ideal) (iblk0 V c 0 t) (iblk0 V c 3 t) (iblk0 V c 5 t) (ix2 r n)
    = rowsBias (V c main_v0 : S2048x768.Idx → EReal) (V c main_v5 : S301x768.Idx → EReal) (V c main_v7 : S1x301.Idx → EReal) (((cfg0.win 8).blk t).view.emb (ix2 r n))
  rw [hE, rowsBias_apply]
  refine (second_entry (iblk0 V c 0 t) (iblk0 V c 3 t) (iblk0 V c 5 t) r n).trans ?_
  rw [w2_block V c t, bb_block V c t]
  congr 1
  exact Finset.sum_congr rfl fun k _ => by rw [tokens_apply V c t r k ⟨win0_0.index t (0 : Fin 2) * 512 + r.val, hlt⟩ rfl]

/-! ## The output blocks tile their arrays -/

theorem mem_blk6 (t : Fin cfg0.N) (i : S2048x1001.Idx) :
    i ∈ ((cfg0.win 6).blk t).view.set ↔ ∀ a : Fin 2, win0_6.index t a * S512x1001.size a ≤ (i a).val ∧ (i a).val < win0_6.index t a * S512x1001.size a + S512x1001.size a := by
  show i ∈ ((View.whole main_v8_0).slice (win0_6.rect t)).set ↔ _
  rw [View.set_slice_whole, Rect.mem_set_unit]
  exact Iff.rfl

theorem mem_blk7 (t : Fin cfg0.N) (i : S2048x301.Idx) :
    i ∈ ((cfg0.win 7).blk t).view.set ↔ ∀ a : Fin 2, win0_7.index t a * S512x301.size a ≤ (i a).val ∧ (i a).val < win0_7.index t a * S512x301.size a + S512x301.size a := by
  show i ∈ ((View.whole main_v8_1).slice (win0_7.rect t)).set ↔ _
  rw [View.set_slice_whole, Rect.mem_set_unit]
  exact Iff.rfl

theorem mem_blk8 (t : Fin cfg0.N) (i : S2048x301.Idx) :
    i ∈ ((cfg0.win 8).blk t).view.set ↔ ∀ a : Fin 2, win0_8.index t a * S512x301.size a ≤ (i a).val ∧ (i a).val < win0_8.index t a * S512x301.size a + S512x301.size a := by
  show i ∈ ((View.whole main_v8_2).slice (win0_8.rect t)).set ↔ _
  rw [View.set_slice_whole, Rect.mem_set_unit]
  exact Iff.rfl

/-- Row `R` of an output lies in the block of the point whose block number is `R / 512`. -/
theorem atom_cover (i : S2048x1001.Idx) :
    ∃ t : Fin cfg0.N, (cfg0.win 6).flush t = true ∧ i ∈ ((cfg0.win 6).blk t).view.set := by
  have hi0 : (i 0).val < 2048 := (i 0).isLt
  have hi1 : (i 1).val < 1001 := (i 1).isLt
  obtain ⟨t, ht⟩ := idx_onto ⟨(i 0).val / 512, by omega⟩
  have ht' : win0_0.index t (0 : Fin 2) = (i 0).val / 512 := ht
  obtain ⟨e01, hT, e10, e11, e20, e21, e30, e31, e40, e41, e50, e51, e60, e61, e70, e71, e80, e81⟩ := idx_facts t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; rw [e60, ht']; omega
  | ⟨1, _⟩ => show win0_6.index t (1 : Fin 2) * 1001 ≤ (i 1).val ∧ (i 1).val < win0_6.index t (1 : Fin 2) * 1001 + 1001; rw [e61]; omega

theorem first_cover (i : S2048x301.Idx) :
    ∃ t : Fin cfg0.N, (cfg0.win 7).flush t = true ∧ i ∈ ((cfg0.win 7).blk t).view.set := by
  have hi0 : (i 0).val < 2048 := (i 0).isLt
  have hi1 : (i 1).val < 301 := (i 1).isLt
  obtain ⟨t, ht⟩ := idx_onto ⟨(i 0).val / 512, by omega⟩
  have ht' : win0_0.index t (0 : Fin 2) = (i 0).val / 512 := ht
  obtain ⟨e01, hT, e10, e11, e20, e21, e30, e31, e40, e41, e50, e51, e60, e61, e70, e71, e80, e81⟩ := idx_facts t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; rw [e70, ht']; omega
  | ⟨1, _⟩ => show win0_7.index t (1 : Fin 2) * 301 ≤ (i 1).val ∧ (i 1).val < win0_7.index t (1 : Fin 2) * 301 + 301; rw [e71]; omega

theorem second_cover (i : S2048x301.Idx) :
    ∃ t : Fin cfg0.N, (cfg0.win 8).flush t = true ∧ i ∈ ((cfg0.win 8).blk t).view.set := by
  have hi0 : (i 0).val < 2048 := (i 0).isLt
  have hi1 : (i 1).val < 301 := (i 1).isLt
  obtain ⟨t, ht⟩ := idx_onto ⟨(i 0).val / 512, by omega⟩
  have ht' : win0_0.index t (0 : Fin 2) = (i 0).val / 512 := ht
  obtain ⟨e01, hT, e10, e11, e20, e21, e30, e31, e40, e41, e50, e51, e60, e61, e70, e71, e80, e81⟩ := idx_facts t
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; rw [e80, ht']; omega
  | ⟨1, _⟩ => show win0_8.index t (1 : Fin 2) * 301 ≤ (i 1).val ∧ (i 1).val < win0_8.index t (1 : Fin 2) * 301 + 301; rw [e81]; omega

/-! ## The three arrays after the call -/

/-- The atom output array after the call. -/
theorem atom_array (c : Dev nD) : (dat0 V c).arrAt 6 cfg0.N
    = rowsBias (V c main_v0 : S2048x768.Idx → EReal) (V c main_v3 : S1001x768.Idx → EReal) (V c main_v6 : S1x1001.Idx → EReal) :=
  (dat0 V c).arrAt_eq_of_cover 6 _ (fun t _ => atom_flushed V c t) atom_cover

/-- The first bond projection's array after the call. -/
theorem first_array (c : Dev nD) : (dat0 V c).arrAt 7 cfg0.N
    = rows (V c main_v0 : S2048x768.Idx → EReal) (V c main_v4 : S301x768.Idx → EReal) :=
  (dat0 V c).arrAt_eq_of_cover 7 _ (fun t _ => first_flushed V c t) first_cover

/-- The second bond projection's array, bias included, after the call. -/
theorem second_array (c : Dev nD) : (dat0 V c).arrAt 8 cfg0.N
    = rowsBias (V c main_v0 : S2048x768.Idx → EReal) (V c main_v5 : S301x768.Idx → EReal) (V c main_v7 : S1x301.Idx → EReal) :=
  (dat0 V c).arrAt_eq_of_cover 8 _ (fun t _ => second_flushed V c t) second_cover

end Cert.KernelIdeal.ProjArrays

end
-- ==== Proof.LibPairSpread.lean ====
/-
  A vector spread along a new axis, read at an entry, for any extents.

  * a matrix `[a, c]` given a unit middle axis, `[a, 1, c]`, holds at `(i, 0, n)` the matrix's entry `(i, n)`;
  * an `[a, 1, c]` array spread to `[a, b, c]` holds at `(i, j, n)` the operand's entry `(i, 0, n)`: it does not
    depend on `j`;
  * a `[1, b, c]` array spread to `[a, b, c]` holds at `(i, j, n)` the operand's entry `(0, j, n)`: it does not
    depend on `i`.

  Together they read the outer sum `p[:, None, :] + q[None, :, :]` of two matrices at `(i, j, n)` as
  `p (i, n) + q (j, n)`.
-/
import Idealize.ShloMosaic.Lib.Pipeline.Value
import Idealize.ShloMosaic.Lib.ValueIdx
import Idealize.ShloMosaic.Lib.ValueLayout

namespace PairSpread

open Idealize.ShloMosaic Idealize.ShloMosaic.ValueIdx

variable {α : Type}

/-- An `[a, c]` array cast to `[a, 1, c]` reads, at `(i, u, n)`, the operand at `(i, n)`, whatever the unit
    coordinate `u`: both positions are `i · c + n` in row-major order. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (n : Fin c) :
    shapeCast ⟨3, ![a, 1, c]⟩ x h (ix3 i u n) = x (ix2 i n) :=
  shapeCast_apply x h _ _ (by
    have hu : u.val = 0 := by omega
    rw [Shape.rowMajor_val_three, Shape.rowMajor_val_two]
    show i.val * c + n.val = (i.val * 1 + u.val) * c + n.val
    rw [hu, Nat.mul_one, Nat.add_zero])

/-- An `[a, 1, c]` array broadcast to `[a, b, c]` reads, at `(i, j, n)`, the operand at `(i, 0, n)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (n : Fin c) :
    broadcastTo ⟨3, ![a, b, c]⟩ v h (ix3 i j n) = v (ix3 i (0 : Fin 1) n) := by
  refine broadcastTo_apply v h (ix3 i j n) (ix3 i (0 : Fin 1) n) fun ax => ?_
  match ax with
  | ⟨0, _⟩ =>
    show i.val = if a = 1 then 0 else i.val
    split
    · have := i.isLt; omega
    · rfl
  | ⟨1, _⟩ => rfl
  | ⟨2, _⟩ =>
    show n.val = if c = 1 then 0 else n.val
    split
    · have := n.isLt; omega
    · rfl

/-- A `[1, b, c]` array broadcast to `[a, b, c]` reads, at `(i, j, n)`, the operand at `(0, j, n)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (n : Fin c) :
    broadcastTo ⟨3, ![a, b, c]⟩ v h (ix3 i j n) = v (ix3 (0 : Fin 1) j n) := by
  refine broadcastTo_apply v h (ix3 i j n) (ix3 (0 : Fin 1) j n) fun ax => ?_
  match ax with
  | ⟨0, _⟩ => rfl
  | ⟨1, _⟩ =>
    show j.val = if b = 1 then 0 else j.val
    split
    · have := j.isLt; omega
    · rfl
  | ⟨2, _⟩ =>
    show n.val = if c = 1 then 0 else n.val
    split
    · have := n.isLt; omega
    · rfl

end PairSpread
-- ==== Proof.BondEntry.lean ====
/-
  The pair-expansion body, read at an entry.

  At a grid point the body holds one batch element's block `p` of 64 rows of the first projection and a block `q`
  of 64 rows of the second, both `[1, 64, 301]`.  It drops the unit axis, gives `p` a unit MIDDLE axis and `q` a unit
  LEADING axis, spreads both to `[64, 64, 301]` and adds: the outer sum over the two row indices.  At entry
  `(0, i, j, n)` of the stored `[1, 64, 64, 301]` block that is

      p (0, i, n) + q (0, j, n).
-/
import proofs.«112111_j6459630814081_2_alg».proof.Proof.Gen.KernelIdeal.Skeleton
import proofs.«112111_j6459630814081_2_alg».proof.Proof.LibPairSpread
import Idealize.ShloMosaic.Lib.Pipeline.Value
import Idealize.ShloMosaic.Lib.ValueIdx
import Idealize.ShloMosaic.Lib.ValueLayout

noncomputable section

namespace Cert.KernelIdeal.BondEntry

open Cert.KernelIdeal Cert.KernelIdeal.Gen Idealize.ShloMosaic Idealize.ShloMosaic.ValueIdx PairSpread

/-- The stored block at `(u, i, j, n)`: row `i` of the first block plus row `j` of the second, at column `n`. -/
theorem pairSum_entry (p q : FVec Ideal S1x64x301 .f32) (u : Fin 1) (i j : Fin 64) (n : Fin 301) :
    k1_pay1 (F := Ideal) p q (ix4 u i j n) = p (ix3 (0 : Fin 1) i n) + q (ix3 (0 : Fin 1) j n) := by
  unfold k1_pay1
  rw [shapeCast_abc_1abc_apply, addf_apply, broadcastTo_a1c_abc_apply, broadcastTo_1bc_abc_apply,
    shapeCast_ac_a1c_apply, shapeCast_ab_1ab_apply, shapeCast_1ab_ab_apply, shapeCast_1ab_ab_apply]

end Cert.KernelIdeal.BondEntry

end
-- ==== Proof.BondArrays.lean ====
/-
  The pair-expansion call's output array, whole.

  The call runs over an `8 × 4 × 4` grid: batch element `e`, row block `bi` of the first projection, row block `bj` of
  the second.  Point `(e, bi, bj)` reads block `(e, bi, 0)` — 64 rows — of the first projection, block `(e, bj, 0)` of the
  second, and writes back block `(e, bi, bj, 0)` of the `[8, 256, 256, 301]` output: for rows `i`, `j` inside the blocks,
  the first projection's row `64·bi + i` plus the second's row `64·bj + j`.  The 128 output blocks tile the array, so
  after the call it is `Heads.pairs` of the two projections the call found:

      out (e, I, J, n) = P (e, I, n) + Q (e, J, n).

  The entry contents `V` of the call are a parameter here.
-/
import proofs.«112111_j6459630814081_2_alg».proof.Proof.Gen.KernelIdeal.Frame
import proofs.«112111_j6459630814081_2_alg».proof.Proof.BondEntry
import proofs.«112111_j6459630814081_2_alg».proof.Proof.HeadsSpec
import Idealize.ShloMosaic.Lib.Pipeline.Value

set_option maxRecDepth 16384

noncomputable section

namespace Cert.KernelIdeal.BondArrays

open Cert.KernelIdeal Cert.KernelIdeal.Gen Idealize.ShloMosaic Idealize.ShloMosaic.TcCoe Idealize.SL.Sem
open Idealize.ShloMosaic.ValueIdx
open Idealize.ShloMosaic.Pipeline (Dat)
open Heads Cert.KernelIdeal.BondEntry

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed block numbers, decided over the 128 grid points: the first input moves with the output's batch and
    first row axes, the second with its batch and second row axes; the column block is 0 throughout. -/
theorem idx_facts : ∀ t : Fin cfg1.N,
    win1_0.index t (0 : Fin 3) = win1_2.index t (0 : Fin 4) ∧ win1_0.index t (1 : Fin 3) = win1_2.index t (1 : Fin 4)
    ∧ win1_0.index t (2 : Fin 3) = 0
    ∧ win1_1.index t (0 : Fin 3) = win1_2.index t (0 : Fin 4) ∧ win1_1.index t (1 : Fin 3) = win1_2.index t (2 : Fin 4)
    ∧ win1_1.index t (2 : Fin 3) = 0
    ∧ win1_2.index t (3 : Fin 4) = 0 ∧ win1_2.index t (0 : Fin 4) ≤ 7 ∧ win1_2.index t (1 : Fin 4) ≤ 3
    ∧ win1_2.index t (2 : Fin 4) ≤ 3 :=
  (by decide +kernel : ∀ t : Fin grid1.N, _)

/-- Every output block is some point's. -/
theorem idx_onto : ∀ (q0 : Fin 8) (q1 : Fin 4) (q2 : Fin 4), ∃ t : Fin cfg1.N,
    win1_2.index t (0 : Fin 4) = q0.val ∧ win1_2.index t (1 : Fin 4) = q1.val ∧ win1_2.index t (2 : Fin 4) = q2.val :=
  (by decide +kernel : ∀ (q0 : Fin 8) (q1 : Fin 4) (q2 : Fin 4), ∃ t : Fin grid1.N,
    win1_2.index t (0 : Fin 4) = q0.val ∧ win1_2.index t (1 : Fin 4) = q1.val ∧ win1_2.index t (2 : Fin 4) = q2.val)

/-! ## The input windows' blocks as entries of the arrays -/

/-- The first projection's block at point `t`: its row `i` is row `64·bi + i` of batch element `e`. -/
theorem firstBlk_apply (c : Dev nD) (t : Fin cfg1.N) (u : Fin 1) (i : Fin 64) (n : Fin 301) (e : Fin 8) (I : Fin 256)
    (he : e.val = win1_2.index t (0 : Fin 4)) (hI : I.val = win1_2.index t (1 : Fin 4) * 64 + i.val) :
    (iblk1 V c 0 t : Vec Ideal S1x64x301 .f32) (ix3 u i n) = (V c main_v10 : S8x256x301.Idx → EReal) (ix3 e I n) := by
  obtain ⟨a00, a01, a02, b00, b01, b02, o3, hb, hi4, hj4⟩ := idx_facts t
  have hu : u.val = 0 := by omega
  unfold iblk1
  rw [View.read_apply]
  show V c main_v10 _ = V c main_v10 _
  congr 1
  funext a; apply Fin.ext
  match a with
  | ⟨0, _⟩ => show win1_0.index t (0 : Fin 3) * 1 + 1 * u.val = e.val; rw [a00, he, hu]; omega
  | ⟨1, _⟩ => show win1_0.index t (1 : Fin 3) * 64 + 1 * i.val = I.val; rw [a01, hI]; omega
  | ⟨2, _⟩ => show win1_0.index t (2 : Fin 3) * 301 + 1 * n.val = n.val; rw [a02]; omega

/-- The second projection's block at point `t`: its row `j` is row `64·bj + j` of batch element `e`. -/
theorem secondBlk_apply (c : Dev nD) (t : Fin cfg1.N) (u : Fin 1) (j : Fin 64) (n : Fin 301) (e : Fin 8) (J : Fin 256)
    (he : e.val = win1_2.index t (0 : Fin 4)) (hJ : J.val = win1_2.index t (2 : Fin 4) * 64 + j.val) :
    (iblk1 V c 1 t : Vec Ideal S1x64x301 .f32) (ix3 u j n) = (V c main_v11 : S8x256x301.Idx → EReal) (ix3 e J n) := by
  obtain ⟨a00, a01, a02, b00, b01, b02, o3, hb, hi4, hj4⟩ := idx_facts t
  have hu : u.val = 0 := by omega
  unfold iblk1
  rw [View.read_apply]
  show V c main_v11 _ = V c main_v11 _
  congr 1
  funext a; apply Fin.ext
  match a with
  | ⟨0, _⟩ => show win1_1.index t (0 : Fin 3) * 1 + 1 * u.val = e.val; rw [b00, he, hu]; omega
  | ⟨1, _⟩ => show win1_1.index t (1 : Fin 3) * 64 + 1 * j.val = J.val; rw [b01, hJ]; omega
  | ⟨2, _⟩ => show win1_1.index t (2 : Fin 3) * 301 + 1 * n.val = n.val; rw [b02]; omega

/-! ## What a point writes back -/

/-- Point `t` writes back block `t` of the pair expansion of the two projections the call found. -/
theorem pairs_flushed (c : Dev nD) (t : Fin cfg1.N) :
    (dat1 V c).flushed 2 t = ((cfg1.win 2).blk t).view.read (Elt Ideal)
      (pairs (V c main_v10 : S8x256x301.Idx → EReal) (V c main_v11 : S8x256x301.Idx → EReal)) := by
  show (cfg1.win 2).cut (grid1.coords t) ((dat1 V c).after 2 t) = _
  rw [after1_2]
  unfold out1_2
  rw [View.canon_unit_zero hz4]
  simp only [View.ld_unit_zero (S := S1x64x301) hz3]
  obtain ⟨a00, a01, a02, b00, b01, b02, o3, hb, hi4, hj4⟩ := idx_facts t
  funext y
  obtain ⟨u, i, j, n, rfl⟩ : ∃ (u : Fin 1) (i j : Fin 64) (n : Fin 301), y = ix4 u i j n := ⟨y 0, y 1, y 2, y 3, eq_ix4 y⟩
  have hu : u.val = 0 := by omega
  have hE8 : win1_2.index t (0 : Fin 4) < 8 := by omega
  have hI256 : win1_2.index t (1 : Fin 4) * 64 + i.val < 256 := by have := i.isLt; omega
  have hJ256 : win1_2.index t (2 : Fin 4) * 64 + j.val < 256 := by have := j.isLt; omega
  have hE : ((cfg1.win 2).blk t).view.emb (ix4 u i j n)
      = ix4 (⟨win1_2.index t (0 : Fin 4), hE8⟩ : Fin 8) (⟨win1_2.index t (1 : Fin 4) * 64 + i.val, hI256⟩ : Fin 256)
          (⟨win1_2.index t (2 : Fin 4) * 64 + j.val, hJ256⟩ : Fin 256) n := by
    funext ax; apply Fin.ext
    match ax with
    | ⟨0, _⟩ => show win1_2.index t (0 : Fin 4) * 1 + 1 * u.val = win1_2.index t (0 : Fin 4); rw [hu]; omega
    | ⟨1, _⟩ => show win1_2.index t (1 : Fin 4) * 64 + 1 * i.val = win1_2.index t (1 : Fin 4) * 64 + i.val; omega
    | ⟨2, _⟩ => show win1_2.index t (2 : Fin 4) * 64 + 1 * j.val = win1_2.index t (2 : Fin 4) * 64 + j.val; omega
    | ⟨3, _⟩ => show win1_2.index t (3 : Fin 4) * 301 + 1 * n.val = n.val; rw [o3]; omega
  show k1_pay1 (F := Ideal) (iblk1 V c 0 t) (iblk1 V c 1 t) (ix4 u i j n)
    = pairs (V c main_v10 : S8x256x301.Idx → EReal) (V c main_v11 : S8x256x301.Idx → EReal) (((cfg1.win 2).blk t).view.emb (ix4 u i j n))
  rw [hE, pairs_apply]
  refine (pairSum_entry (iblk1 V c 0 t) (iblk1 V c 1 t) u i j n).trans ?_
  rw [firstBlk_apply V c t 0 i n ⟨win1_2.index t (0 : Fin 4), hE8⟩ ⟨win1_2.index t (1 : Fin 4) * 64 + i.val, hI256⟩ rfl rfl,
    secondBlk_apply V c t 0 j n ⟨win1_2.index t (0 : Fin 4), hE8⟩ ⟨win1_2.index t (2 : Fin 4) * 64 + j.val, hJ256⟩ rfl rfl]

/-! ## The output blocks tile the array -/

theorem mem_blk (t : Fin cfg1.N) (i : S8x256x256x301.Idx) :
    i ∈ ((cfg1.win 2).blk t).view.set ↔ ∀ a : Fin 4, win1_2.index t a * S1x64x64x301.size a ≤ (i a).val ∧ (i a).val < win1_2.index t a * S1x64x64x301.size a + S1x64x64x301.size a := by
  show i ∈ ((View.whole main_v12).slice (win1_2.rect t)).set ↔ _
  rw [View.set_slice_whole, Rect.mem_set_unit]
  exact Iff.rfl

/-- Entry `(e, I, J, n)` lies in the block of the point `(e, I / 64, J / 64)`. -/
theorem pairs_cover (i : S8x256x256x301.Idx) :
    ∃ t : Fin cfg1.N, (cfg1.win 2).flush t = true ∧ i ∈ ((cfg1.win 2).blk t).view.set := by
  have hi0 : (i 0).val < 8 := (i 0).isLt
  have hi1 : (i 1).val < 256 := (i 1).isLt
  have hi2 : (i 2).val < 256 := (i 2).isLt
  have hi3 : (i 3).val < 301 := (i 3).isLt
  obtain ⟨t, ht0, ht1, ht2⟩ := idx_onto ⟨(i 0).val, hi0⟩ ⟨(i 1).val / 64, by omega⟩ ⟨(i 2).val / 64, by omega⟩
  have ht0' : win1_2.index t (0 : Fin 4) = (i 0).val := ht0
  have ht1' : win1_2.index t (1 : Fin 4) = (i 1).val / 64 := ht1
  have ht2' : win1_2.index t (2 : Fin 4) = (i 2).val / 64 := ht2
  obtain ⟨a00, a01, a02, b00, b01, b02, o3, hb, hi4, hj4⟩ := idx_facts t
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; rw [ht0']; omega
  | ⟨1, _⟩ => show win1_2.index t (1 : Fin 4) * 64 ≤ (i 1).val ∧ (i 1).val < win1_2.index t (1 : Fin 4) * 64 + 64; rw [ht1']; omega
  | ⟨2, _⟩ => show win1_2.index t (2 : Fin 4) * 64 ≤ (i 2).val ∧ (i 2).val < win1_2.index t (2 : Fin 4) * 64 + 64; rw [ht2']; omega
  | ⟨3, _⟩ => show win1_2.index t (3 : Fin 4) * 301 ≤ (i 3).val ∧ (i 3).val < win1_2.index t (3 : Fin 4) * 301 + 301; rw [o3]; omega

/-! ## The array after the call -/

theorem pairs_array (c : Dev nD) : (dat1 V c).arrAt 2 cfg1.N
    = pairs (V c main_v10 : S8x256x301.Idx → EReal) (V c main_v11 : S8x256x301.Idx → EReal) :=
  (dat1 V c).arrAt_eq_of_cover 2 _ (fun t _ => pairs_flushed V c t) pairs_cover

end Cert.KernelIdeal.BondArrays

end
-- ==== Proof.LibFlattenRows.lean ====
/-
  The leading two axes of a rank-3 array merged into one, and split again, read at an entry, for any extents.

  An `[A, B, C]` array and its reshape `[A·B, C]` list the same numbers in the same row-major order, so entry
  `(e, l, n)` of the one is entry `(e·B + l, n)` of the other, in both directions:

  * `flatten_apply`: the `[M, C]` reshape of an `[A, B, C]` array at `(R, n)`, `R = e·B + l`, is the array at `(e, l, n)`;
  * `unflatten_apply`: the `[A, B, C]` reshape of an `[M, C]` array at `(e, l, n)` is the array at `(R, n)`.

  `M` is any extent for which the reshape is stated (it is `A·B` whenever one is); the row `R` is given with its equation.
-/
import Idealize.ShloMosaic.Lib.Pipeline.Value
import Idealize.ShloMosaic.Lib.ValueIdx

namespace FlattenRows

open Idealize.ShloMosaic Idealize.ShloMosaic.ValueIdx

variable {α : Type}

/-- The `[M, C]` reshape of an `[A, B, C]` array reads, at `(R, n)` with `R = e·B + l`, the array at `(e, l, n)`. -/
theorem flatten_apply {A B C M : ℕ} (x : (⟨3, ![A, B, C]⟩ : Shape).Idx → α)
    (h : (⟨3, ![A, B, C]⟩ : Shape).ShapeCasts ⟨2, ![M, C]⟩) (R : Fin M) (n : Fin C) (e : Fin A) (l : Fin B)
    (hR : R.val = e.val * B + l.val) :
    shapeCast ⟨2, ![M, C]⟩ x h (ix2 R n) = x (ix3 e l n) :=
  shapeCast_apply x h _ _ (by
    rw [Shape.rowMajor_val_three, Shape.rowMajor_val_two]
    show (e.val * B + l.val) * C + n.val = R.val * C + n.val
    rw [hR])

/-- The `[A, B, C]` reshape of an `[M, C]` array reads, at `(e, l, n)`, the array at `(R, n)` with `R = e·B + l`. -/
theorem unflatten_apply {A B C M : ℕ} (x : (⟨2, ![M, C]⟩ : Shape).Idx → α)
    (h : (⟨2, ![M, C]⟩ : Shape).ShapeCasts ⟨3, ![A, B, C]⟩) (e : Fin A) (l : Fin B) (n : Fin C) (R : Fin M)
    (hR : R.val = e.val * B + l.val) :
    shapeCast ⟨3, ![A, B, C]⟩ x h (ix3 e l n) = x (ix2 R n) :=
  shapeCast_apply x h _ _ (by
    rw [Shape.rowMajor_val_three, Shape.rowMajor_val_two]
    show R.val * C + n.val = (e.val * B + l.val) * C + n.val
    rw [hR])

end FlattenRows
-- ==== Proof.KernelValue.lean ====
/-
  The idealized kernel's two results as functions of its arguments.

  The fold of buffer contents through the program (`Gen.W0` … `Gen.W4`) is read here stage by stage:

  * before the projection call the host reshapes the tokens `[8, 256, 768]` to rows `[2048, 768]` (token `(e, l)` is
    row `256·e + l`), cuts the bond weights `[301, 1536]` into their first and last 768 columns, changes the three weight
    matrices' float format (the identity on the extended reals) and reshapes the two biases to one row each;
  * the projection call leaves the atom head, the first bond projection and the second bond projection WITH the bond
    bias, on rows (`ProjArrays`);
  * three reshapes split the rows back into `(e, l)`;
  * the pair-expansion call leaves `P (e, i, n) + Q (e, j, n)` (`BondArrays`).

  Entry by entry that is `Heads.atomLogits` and `Heads.bondLogits` of the arguments, and `run` restates the run of
  `KernelRun` with the two result buffers at those functions.
-/
import proofs.«112111_j6459630814081_2_alg».proof.Proof.KernelRun
import proofs.«112111_j6459630814081_2_alg».proof.Proof.ProjArrays
import proofs.«112111_j6459630814081_2_alg».proof.Proof.BondArrays
import proofs.«112111_j6459630814081_2_alg».proof.Proof.HeadsSpec
import proofs.«112111_j6459630814081_2_alg».proof.Proof.LibFlattenRows
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Results

open Cert.KernelIdeal Cert.KernelIdeal.Gen Idealize.ShloMosaic Idealize.ShloMosaic.TcCoe Idealize.SL.Sem
open Idealize.ShloMosaic.StableHlo Idealize.ShloMosaic.ValueIdx
open Heads FlattenRows

variable (m : (ℓ : Loc nD τ sig) → Buf (Elt Ideal) ℓ) (ρ : Dev nD → PrngReg)

/-- The tokens as launched. -/
abbrev xA (c : Dev nD) : S8x256x768.Idx → EReal := m ((c : Thread nD τ).loc main_arg0)
/-- The atom weights as launched. -/
abbrev waA (c : Dev nD) : S1001x768.Idx → EReal := m ((c : Thread nD τ).loc main_arg1)
/-- The atom bias as launched. -/
abbrev baA (c : Dev nD) : S1001.Idx → EReal := m ((c : Thread nD τ).loc main_arg2)
/-- The bond weights as launched. -/
abbrev wbA (c : Dev nD) : S301x1536.Idx → EReal := m ((c : Thread nD τ).loc main_arg3)
/-- The bond bias as launched. -/
abbrev bbA (c : Dev nD) : S301.Idx → EReal := m ((c : Thread nD τ).loc main_arg4)

/-! ## What the projection call finds -/

theorem found_tokens (c : Dev nD) : (V1 m ρ c main_v0 : S2048x768.Idx → EReal)
    = shapeCast S2048x768 (xA m c) shapeCasts_S8x256x768_S2048x768 := by
  dsimp only [V1, W1, W0, hostOps0]; after_results; rfl

theorem found_wa (c : Dev nD) : (V1 m ρ c main_v3 : S1001x768.Idx → EReal) = waA m c := by
  dsimp only [V1, W1, W0, hostOps0]; after_results; rfl

theorem found_w1 (c : Dev nD) : (V1 m ρ c main_v4 : S301x768.Idx → EReal)
    = extractStridedSlice S301x768 ![0, 0] (wbA m c) slices_S301x1536_S301x768_0_0 := by
  dsimp only [V1, W1, W0, hostOps0]; after_results; rfl

theorem found_w2 (c : Dev nD) : (V1 m ρ c main_v5 : S301x768.Idx → EReal)
    = extractStridedSlice S301x768 ![0, 768] (wbA m c) slices_S301x1536_S301x768_0_768 := by
  dsimp only [V1, W1, W0, hostOps0]; after_results; rfl

theorem found_ba (c : Dev nD) : (V1 m ρ c main_v6 : S1x1001.Idx → EReal)
    = shapeCast S1x1001 (baA m c) shapeCasts_S1001_S1x1001 := by
  dsimp only [V1, W1, W0, hostOps0]; after_results; rfl

theorem found_bb (c : Dev nD) : (V1 m ρ c main_v7 : S1x301.Idx → EReal)
    = shapeCast S1x301 (bbA m c) shapeCasts_S301_S1x301 := by
  dsimp only [V1, W1, W0, hostOps0]; after_results; rfl

/-! ## The three reshapes after the projection call -/

theorem atom_unflattened (c : Dev nD) : (W3 m ρ c (Proc.devRef .tc main_v9) : S8x256x1001.Idx → EReal)
    = shapeCast S8x256x1001 (W2 m ρ c (Proc.devRef .tc main_v8_0) : S2048x1001.Idx → EReal) shapeCasts_S2048x1001_S8x256x1001 := by
  dsimp only [W3, hostOps1]; after_results; rfl

theorem found_first (c : Dev nD) : (V3 m ρ c main_v10 : S8x256x301.Idx → EReal)
    = shapeCast S8x256x301 (W2 m ρ c (Proc.devRef .tc main_v8_1) : S2048x301.Idx → EReal) shapeCasts_S2048x301_S8x256x301 := by
  dsimp only [V3, W3, hostOps1]; after_results; rfl

theorem found_second (c : Dev nD) : (V3 m ρ c main_v11 : S8x256x301.Idx → EReal)
    = shapeCast S8x256x301 (W2 m ρ c (Proc.devRef .tc main_v8_2) : S2048x301.Idx → EReal) shapeCasts_S2048x301_S8x256x301 := by
  dsimp only [V3, W3, hostOps1]; after_results; rfl

/-! ## The halves of the bond weights at an entry -/

theorem w1_entry (W : S301x1536.Idx → EReal) (n : Fin 301) (k : Fin 768) :
    extractStridedSlice S301x768 ![0, 0] W slices_S301x1536_S301x768_0_0 (ix2 n k) = W (ix2 n (lo k)) :=
  extractStridedSlice_apply ![0, 0] W slices_S301x1536_S301x768_0_0 (ix2 n k) (ix2 n (lo k)) (fun a => match a with
    | ⟨0, _⟩ => by show n.val = 0 + n.val; omega
    | ⟨1, _⟩ => by show k.val = 0 + k.val; omega)

theorem w2_entry (W : S301x1536.Idx → EReal) (n : Fin 301) (k : Fin 768) :
    extractStridedSlice S301x768 ![0, 768] W slices_S301x1536_S301x768_0_768 (ix2 n k) = W (ix2 n (hi k)) :=
  extractStridedSlice_apply ![0, 768] W slices_S301x1536_S301x768_0_768 (ix2 n k) (ix2 n (hi k)) (fun a => match a with
    | ⟨0, _⟩ => by show n.val = 0 + n.val; omega
    | ⟨1, _⟩ => by show 768 + k.val = 768 + k.val; omega)

/-! ## The two results -/

/-- The atom logits the kernel leaves: the atom head of the arguments. -/
theorem atom_value (c : Dev nD) :
    W4 m ρ c (Proc.devRef .tc main_v9) = atomLogits (xA m c) (waA m c) (baA m c) := by
  have h1 : W4 m ρ c (Proc.devRef .tc main_v9) = W3 m ρ c (Proc.devRef .tc main_v9) := W4_of_ne m ρ c main_v9 (by decide)
  have h3 : W2 m ρ c (Proc.devRef .tc main_v8_0) = (dat0 (V1 m ρ) c).arrAt 6 cfg0.N := W2_arr m ρ c 6
  rw [h1, atom_unflattened, h3, ProjArrays.atom_array (V1 m ρ) c, found_tokens, found_wa, found_ba]
  funext i
  obtain ⟨e, l, a, rfl⟩ : ∃ (e : Fin 8) (l : Fin 256) (a : Fin 1001), i = ix3 e l a := ⟨i 0, i 1, i 2, eq_ix3 i⟩
  have hlt : e.val * 256 + l.val < 2048 := by have := e.isLt; have := l.isLt; omega
  rw [unflatten_apply _ _ e l a ⟨e.val * 256 + l.val, hlt⟩ rfl, rowsBias_apply, atomLogits_apply, shapeCast_a_1a_apply]
  congr 1
  refine Finset.sum_congr rfl fun k _ => ?_
  rw [flatten_apply _ _ ⟨e.val * 256 + l.val, hlt⟩ k e l rfl]

/-- The bond logits the kernel leaves: the bond head of the arguments, the bias grouped with the second projection. -/
theorem bond_value (c : Dev nD) :
    W4 m ρ c (Proc.devRef .tc main_v12) = bondLogits (xA m c) (wbA m c) (bbA m c) := by
  have h1 : W4 m ρ c (Proc.devRef .tc main_v12) = (dat1 (V3 m ρ) c).arrAt 2 cfg1.N := W4_arr m ρ c 2
  have h7 : W2 m ρ c (Proc.devRef .tc main_v8_1) = (dat0 (V1 m ρ) c).arrAt 7 cfg0.N := W2_arr m ρ c 7
  have h8 : W2 m ρ c (Proc.devRef .tc main_v8_2) = (dat0 (V1 m ρ) c).arrAt 8 cfg0.N := W2_arr m ρ c 8
  rw [h1, BondArrays.pairs_array (V3 m ρ) c, found_first, found_second, h7, h8,
    ProjArrays.first_array (V1 m ρ) c, ProjArrays.second_array (V1 m ρ) c,
    found_tokens, found_w1, found_w2, found_bb]
  funext y
  obtain ⟨e, i, j, n, rfl⟩ : ∃ (e : Fin 8) (i j : Fin 256) (n : Fin 301), y = ix4 e i j n := ⟨y 0, y 1, y 2, y 3, eq_ix4 y⟩
  have hI : e.val * 256 + i.val < 2048 := by have := e.isLt; have := i.isLt; omega
  have hJ : e.val * 256 + j.val < 2048 := by have := e.isLt; have := j.isLt; omega
  rw [pairs_apply, bondLogits_apply, unflatten_apply _ _ e i n ⟨e.val * 256 + i.val, hI⟩ rfl,
    unflatten_apply _ _ e j n ⟨e.val * 256 + j.val, hJ⟩ rfl, rows_apply, rowsBias_apply, shapeCast_a_1a_apply]
  congr 1
  · refine Finset.sum_congr rfl fun k _ => ?_
    rw [flatten_apply _ _ ⟨e.val * 256 + i.val, hI⟩ k e i rfl, w1_entry]
  · congr 1
    refine Finset.sum_congr rfl fun k _ => ?_
    rw [flatten_apply _ _ ⟨e.val * 256 + j.val, hJ⟩ k e j rfl, w2_entry]

/-! ## The run -/

/-- Every weakly fair execution of the idealized kernel terminates, nothing faulting, with the atom logits and the bond
    logits at the two heads of the arguments, and the arguments as launched. -/
theorem run : θ_run defs (onTc (τ := τ) (main (F := Ideal))) ⟨m, fun _ => 0, ρ⟩ (fun r => ∀ c : Dev nD,
      r.2.mem ((c.tc : Thread nD τ).loc main_v9) = atomLogits (xA m c) (waA m c) (baA m c)
      ∧ r.2.mem ((c.tc : Thread nD τ).loc main_v12) = bondLogits (xA m c) (wbA m c) (bbA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (atom_value m ρ c), (h c).2.1.trans (bond_value m ρ c), (h c).2.2⟩)
    (run_fold m ρ)

end Cert.KernelIdeal.Results

end
-- ==== Proof.RefValue.lean ====
/-
  The reference's two results as the two heads of its arguments.

  The reference contracts the tokens `[8, 256, 768]` directly with each weight matrix over the feature axis, spreads the
  atom bias over batch and position, and forms the bond logits as

      (first (e, i, n) spread over j  +  second (e, j, n) spread over i)  +  bond bias spread over (e, i, j),

  the two projections taken with the first and the last 768 columns of the bond weights.  Read entry by entry (the
  generated stage lemmas, one per operation) the atom result is `Heads.atomLogits` as it stands, and the bond result is
  `(p + q) + b` where `Heads.bondLogits` has `p + (q + b)`: equal by associativity of addition on the extended reals.
-/
import proofs.«112111_j6459630814081_2_alg».proof.Proof.Gen.ReferenceIdeal.Read
import proofs.«112111_j6459630814081_2_alg».proof.Proof.HeadsSpec

noncomputable section

namespace Cert.ReferenceIdeal.RefValue

open Cert.ReferenceIdeal Cert.ReferenceIdeal.Gen Cert.ReferenceIdeal.Read
open Idealize.ShloMosaic Idealize.ShloMosaic.ValueIdx Heads

/-- The reference's atom logits are the atom head of its arguments. -/
theorem atom_ref (x0 : (⟨S8x256x768, .f32⟩ : BufTy).Contents (Elt Ideal)) (x1 : (⟨S1001x768, .f32⟩ : BufTy).Contents (Elt Ideal))
    (x2 : (⟨S1001, .f32⟩ : BufTy).Contents (Elt Ideal)) :
    val_main_v3 (F := Ideal) x0 x1 x2 = atomLogits x0 x1 x2 := by
  funext y
  obtain ⟨e, l, a, rfl⟩ : ∃ (e : Fin 8) (l : Fin 256) (a : Fin 1001), y = ix3 e l a := ⟨y 0, y 1, y 2, eq_ix3 y⟩
  have hl : ∀ k : Fin 768, lidx_main_v0 (ix3 e l a) k = ix3 e l k := fun k => funext fun ax => Fin.ext (by
    match ax with | ⟨0, _⟩ => rfl | ⟨1, _⟩ => rfl | ⟨2, _⟩ => rfl)
  have hr : ∀ k : Fin 768, ridx_main_v0 (ix3 e l a) k = ix2 a k := fun k => funext fun ax => Fin.ext (by
    match ax with | ⟨0, _⟩ => rfl | ⟨1, _⟩ => rfl)
  have hb : idx_main_v1 (idx_main_v2 (ix3 e l a)) = ix1 a := funext fun ax => Fin.ext (by
    match ax with | ⟨0, _⟩ => rfl)
  rw [val_main_v3_apply, val_main_v0_apply, val_main_v2_apply, val_main_v1_apply, atomLogits_apply]
  simp only [hl, hr, hb, Ideal.addf_def]

/-- The reference's bond logits are the bond head of its arguments: the bias, added last there, regrouped with the
    second projection. -/
theorem bond_ref (x0 : (⟨S8x256x768, .f32⟩ : BufTy).Contents (Elt Ideal)) (x3 : (⟨S301x1536, .f32⟩ : BufTy).Contents (Elt Ideal))
    (x4 : (⟨S301, .f32⟩ : BufTy).Contents (Elt Ideal)) :
    val_main_v15 (F := Ideal) x0 x3 x4 = bondLogits x0 x3 x4 := by
  funext y
  obtain ⟨e, i, j, n, rfl⟩ : ∃ (e : Fin 8) (i j : Fin 256) (n : Fin 301), y = ix4 e i j n := ⟨y 0, y 1, y 2, y 3, eq_ix4 y⟩
  have hl6 : ∀ k : Fin 768, lidx_main_v6 (idx_main_v8 (idx_main_v10 (ix4 e i j n))) k = ix3 e i k := fun k =>
    funext fun ax => Fin.ext (by match ax with | ⟨0, _⟩ => rfl | ⟨1, _⟩ => rfl | ⟨2, _⟩ => rfl)
  have hr6 : ∀ k : Fin 768, idx_main_v4 (ridx_main_v6 (idx_main_v8 (idx_main_v10 (ix4 e i j n))) k) = ix2 n (lo k) := fun k =>
    funext fun ax => Fin.ext (by match ax with | ⟨0, _⟩ => rfl | ⟨1, _⟩ => rfl)
  have hl7 : ∀ k : Fin 768, lidx_main_v7 (idx_main_v9 (idx_main_v11 (ix4 e i j n))) k = ix3 e j k := fun k =>
    funext fun ax => Fin.ext (by match ax with | ⟨0, _⟩ => rfl | ⟨1, _⟩ => rfl | ⟨2, _⟩ => rfl)
  have hr7 : ∀ k : Fin 768, idx_main_v5 (ridx_main_v7 (idx_main_v9 (idx_main_v11 (ix4 e i j n))) k) = ix2 n (hi k) := fun k =>
    funext fun ax => Fin.ext (by match ax with | ⟨0, _⟩ => rfl | ⟨1, _⟩ => rfl)
  have hb : idx_main_v13 (idx_main_v14 (ix4 e i j n)) = ix1 n := funext fun ax => Fin.ext (by
    match ax with | ⟨0, _⟩ => rfl)
  rw [val_main_v15_apply, val_main_v12_apply, val_main_v10_apply, val_main_v8_apply, val_main_v6_apply,
    val_main_v11_apply, val_main_v9_apply, val_main_v7_apply, val_main_v14_apply, val_main_v13_apply, bondLogits_apply]
  simp only [val_main_v4_apply, val_main_v5_apply, hl6, hr6, hl7, hr7, hb, Ideal.addf_def]
  exact bond_regroup _ _ _

end Cert.ReferenceIdeal.RefValue

end
-- ==== Proof.lean ====
/-
  Two heads over token pairs: a tiled kernel against its plain reference, equal on the extended reals.

  Arguments: tokens `x : [8, 256, 768]`, atom weights `Wa : [1001, 768]` and bias `ba : [1001]`, bond weights
  `Wb : [301, 1536]` and bias `bb : [301]`.  Results:

      atom (e, l, a)    = (Σ k, x (e, l, k) · Wa (a, k)) + ba a
      bond (e, i, j, n) =  Σ k, x (e, i, k) · Wb (n, k)  +  Σ k, x (e, j, k) · Wb (n, 768 + k)  +  bb n.

  The kernel flattens the tokens to 2048 rows and, in one call over 4 blocks of 512 rows, multiplies each block with the
  three weight matrices (in a narrower float format — the identity on the extended reals — accumulating from zero, which
  is the plain sum), adding `ba` to the atom product and `bb` to the SECOND bond projection; a second call over an
  `8 × 4 × 4` grid adds row `i` of the first projection to row `j` of the second, 64 × 64 rows at a time.  So the kernel
  computes `p + (q + bb)` where the reference computes `(p + q) + bb`.  Addition on the extended reals is associative
  without any side condition, so the two agree for ALL inputs and the finiteness precondition is never opened.

  The modules: `HeadsSpec` states the two heads as functions of the arguments; `ProjEntry`, `BondEntry` read the two
  kernel bodies at an entry; `ProjArrays`, `BondArrays` turn each call's blocks into whole arrays; `KernelRun`,
  `KernelValue` follow the buffers through the program to the two result arrays; `RefValue` reads the reference's
  sixteen operations as the same two heads.  Here the five claims are assembled: the three frames (each program
  terminates, nothing faulting, its arguments unchanged), the idealization (no operation was rewritten, so there is
  nothing to state), and the equality of the results.
-/
import proofs.«112111_j6459630814081_2_alg».proof.Defs
import proofs.«112111_j6459630814081_2_alg».proof.Proof.Gen.Kernel
import proofs.«112111_j6459630814081_2_alg».proof.Proof.Gen.Kernel.Skeleton
import proofs.«112111_j6459630814081_2_alg».proof.Proof.Gen.Kernel.Launch
import proofs.«112111_j6459630814081_2_alg».proof.Proof.Gen.Kernel.Points
import proofs.«112111_j6459630814081_2_alg».proof.Proof.Gen.Kernel.Frame
import proofs.«112111_j6459630814081_2_alg».proof.Proof.Gen.KernelIdeal
import proofs.«112111_j6459630814081_2_alg».proof.Proof.Gen.KernelIdeal.Skeleton
import proofs.«112111_j6459630814081_2_alg».proof.Proof.Gen.KernelIdeal.Launch
import proofs.«112111_j6459630814081_2_alg».proof.Proof.Gen.KernelIdeal.Points
import proofs.«112111_j6459630814081_2_alg».proof.Proof.Gen.KernelIdeal.Frame
import proofs.«112111_j6459630814081_2_alg».proof.Proof.Gen.ReferenceIdeal
import proofs.«112111_j6459630814081_2_alg».proof.Proof.Gen.ReferenceIdeal.Run
import proofs.«112111_j6459630814081_2_alg».proof.Proof.Gen.ReferenceIdeal.Read
import proofs.«112111_j6459630814081_2_alg».proof.Proof.Gen.Pre_finite_inputs
import proofs.«112111_j6459630814081_2_alg».proof.Proof.KernelValue
import proofs.«112111_j6459630814081_2_alg».proof.Proof.RefValue
import Idealize.ShloMosaic.Adequacy
import Idealize.ShloMosaic.Init

noncomputable section

namespace Cert.Proof

open Idealize.ShloMosaic Idealize.SL.Sem

/-- The kernel as printed terminates, nothing faulting, its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the atom head and the bond head of those arguments
    in their result arrays: the kernel's by following its buffers through the two calls, the reference's by reading its
    operations entry by entry and regrouping the bond bias. -/
theorem algebraic : Cert.algebraic_KernelIdeal_ReferenceIdeal := by
  intro m ρ m' ρ' _ hagree
  refine ⟨fun c => Heads.atomLogits (Cert.KernelIdeal.Results.xA m c) (Cert.KernelIdeal.Results.waA m c) (Cert.KernelIdeal.Results.baA m c),
    fun c => Heads.bondLogits (Cert.KernelIdeal.Results.xA m c) (Cert.KernelIdeal.Results.wbA m c) (Cert.KernelIdeal.Results.bbA m c),
    Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v3_eq, Cert.ReferenceIdeal.RefValue.atom_ref,
      (hagree c).1, (hagree c).2.1, (hagree c).2.2.1]
  · rw [Cert.ReferenceIdeal.Read.val_main_v15_eq, Cert.ReferenceIdeal.RefValue.bond_ref,
      (hagree c).1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
